-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v47)) (v1 : (c : Dev Cert.KernelIdeal.nD) → Buf (Elt Ideal) ((c.tc : Thread Cert.KernelIdeal.nD Cert.KernelIdeal.τ).loc Cert.KernelIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_v48) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_v62) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S256x64 : Shape := ⟨2, ![256, 64]⟩
abbrev S800000 : Shape := ⟨1, ![800000]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x64 : S_.BroadcastsInDim S256x64 (![] : Fin 0 → Fin S256x64.rank)
  reducesTo_S256x64_S_d0_1 : S256x64.ReducesTo [0, 1] S_

variable [Facts]

def fn {F : FTy → Type} [FloatOps F] (main_arg0 : FVec F S50000x256 .f32) (main_arg1 : FVec F S256x64 .f32) (main_arg2 : FVec F S256x64 .f32) (main_arg3 : IVec S800000 32) (main_arg4 : IVec S800000 32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x64 .f32 := Host.absf main_arg1
  let main_cst_0 : FVec F S_ .f32 := constant S_ .f32 0x7F800000#32
  let main_v5 : FVec F S256x64 .f32 := broadcastInDim S256x64 ![] bcast_S_S256x64 main_cst_0
  let main_v6 : IVec S256x64 1 := cmpf .olt main_v4 main_v5
  let main_c_1 : IVec S_ 1 := constantI S_ 1 1#1
  let main_v7 : IVec S_ 1 := (fun x v => Host.reduce IntOp.andi x v reducesTo_S256x64_S_d0_1 h_S_) main_v6 main_c_1
  let main_v8 : IVec S_ 1 := andi main_v3 main_v7
  let main_v9 : FVec F S256x64 .f32 := Host.absf main_arg2
  let main_cst_2 : FVec F S_ .f32 := constant S_ .f32 0x7F800000#32
  let main_v10 : FVec F S256x64 .f32 := broadcastInDim S256x64 ![] bcast_S_S256x64 main_cst_2
  let main_v11 : IVec S256x64 1 := cmpf .olt main_v9 main_v10
  let main_c_3 : IVec S_ 1 := constantI S_ 1 1#1
  let main_v12 : IVec S_ 1 := (fun x v => Host.reduce IntOp.andi x v reducesTo_S256x64_S_d0_1 h_S_) main_v11 main_c_3
  let main_v13 : IVec S_ 1 := andi main_v8 main_v12
  main_v13
-- ==== Kernel.lean ====
abbrev S50000x256 : Shape := ⟨2, ![50000, 256]⟩
abbrev S256x64 : Shape := ⟨2, ![256, 64]⟩
abbrev S800000 : Shape := ⟨1, ![800000]⟩
abbrev S50000x128 : Shape := ⟨2, ![50000, 128]⟩
abbrev S5000x256 : Shape := ⟨2, ![5000, 256]⟩
abbrev S5000x128 : Shape := ⟨2, ![5000, 128]⟩
abbrev S5000x64 : Shape := ⟨2, ![5000, 64]⟩
abbrev S50000 : Shape := ⟨1, ![50000]⟩
abbrev S850000 : Shape := ⟨1, ![850000]⟩
abbrev S_ : Shape := ⟨0, ![]⟩
abbrev S850000x1 : Shape := ⟨2, ![850000, 1]⟩
abbrev S128 : Shape := ⟨1, ![128]⟩
abbrev S1x128 : Shape := ⟨2, ![1, 128]⟩
abbrev S850000x128 : Shape := ⟨2, ![850000, 128]⟩
abbrev S50000x64 : Shape := ⟨2, ![50000, 64]⟩

abbrev nBuf : Space → Nat
  | .hbm => 68
  | .vmem => 6
  | .smem => 0
  | _ => 0

abbrev bufTy : (tb : Table) → Fin (tcTables nBuf tb) → BufTy
  | .hbm, ⟨0, _⟩ => ⟨S50000x256, .f32⟩
  | .hbm, ⟨1, _⟩ => ⟨S256x64, .f32⟩
  | .hbm, ⟨2, _⟩ => ⟨S256x64, .f32⟩
  | .hbm, ⟨3, _⟩ => ⟨S800000, .i32⟩
  | .hbm, ⟨4, _⟩ => ⟨S800000, .i32⟩
  | .hbm, ⟨5, _⟩ => ⟨S50000x128, .bf16⟩
  | .hbm, ⟨6, _⟩ => ⟨S50000, .i32⟩
  | .hbm, ⟨7, _⟩ => ⟨S850000, .i32⟩
  | .hbm, ⟨8, _⟩ => ⟨S850000, .i32⟩
  | .hbm, ⟨9, _⟩ => ⟨S_, .f32⟩
  | .hbm, ⟨10, _⟩ => ⟨S850000, .f32⟩
  | .hbm, ⟨11, _⟩ => ⟨S_, .f32⟩
  | .hbm, ⟨12, _⟩ => ⟨S50000, .f32⟩
  | .hbm, ⟨13, _⟩ => ⟨S850000x1, .i32⟩
  | .hbm, ⟨14, _⟩ => ⟨S50000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .i32⟩
  | .hbm, ⟨20, _⟩ => ⟨S850000, .i32⟩
  | .hbm, ⟨21, _⟩ => ⟨S850000, .i1⟩
  | .hbm, ⟨22, _⟩ => ⟨S_, .i32⟩
  | .hbm, ⟨23, _⟩ => ⟨S850000, .i32⟩
  | .hbm, ⟨24, _⟩ => ⟨S850000, .i32⟩
  | .hbm, ⟨25, _⟩ => ⟨S850000, .i32⟩
  | .hbm, ⟨26, _⟩ => ⟨S850000x1, .i32⟩
  | .hbm, ⟨27, _⟩ => ⟨S850000, .f32⟩
  | .hbm, ⟨28, _⟩ => ⟨S_, .i32⟩
  | .hbm, ⟨29, _⟩ => ⟨S850000, .i32⟩
  | .hbm, ⟨30, _⟩ => ⟨S850000, .i1⟩
  | .hbm, ⟨31, _⟩ => ⟨S_, .i32⟩
  | .hbm, ⟨32, _⟩ => ⟨S850000, .i32⟩
  | .hbm, ⟨33, _⟩ => ⟨S850000, .i32⟩
  | .hbm, ⟨34, _⟩ => ⟨S850000, .i32⟩
  | .hbm, ⟨35, _⟩ => ⟨S850000x1, .i32⟩
  | .hbm, ⟨36, _⟩ => ⟨S850000, .f32⟩
  | .hbm, ⟨37, _⟩ => ⟨S850000, .f32⟩
  | .hbm, ⟨38, _⟩ => ⟨S850000, .f32⟩
  | .hbm, ⟨39, _⟩ => ⟨S850000, .f32⟩
  | .hbm, ⟨40, _⟩ => ⟨S128, .i32⟩
  | .hbm, ⟨41, _⟩ => ⟨S_, .i32⟩
  | .hbm, ⟨42, _⟩ => ⟨S128, .i32⟩
  | .hbm, ⟨43, _⟩ => ⟨S128, .i1⟩
  | .hbm, ⟨44, _⟩ => ⟨S1x128, .i1⟩
  | .hbm, ⟨45, _⟩ => ⟨S850000x1, .f32⟩
  | .hbm, ⟨46, _⟩ => ⟨S850000x1, .f32⟩
  | .hbm, ⟨47, _⟩ => ⟨S850000x128, .i1⟩
  | .hbm, ⟨48, _⟩ => ⟨S850000x128, .f32⟩
  | .hbm, ⟨49, _⟩ => ⟨S850000x128, .f32⟩
  | .hbm, ⟨50, _⟩ => ⟨S850000x128, .f32⟩
  | .hbm, ⟨51, _⟩ => ⟨S_, .i32⟩
  | .hbm, ⟨52, _⟩ => ⟨S850000, .i32⟩
  | .hbm, ⟨53, _⟩ => ⟨S850000, .i1⟩
  | .hbm, ⟨54, _⟩ => ⟨S_, .i32⟩
  | .hbm, ⟨55, _⟩ => ⟨S850000, .i32⟩
  | .hbm, ⟨56, _⟩ => ⟨S850000, .i32⟩
  | .hbm, ⟨57, _⟩ => ⟨S850000, .i32⟩
  | .hbm, ⟨58, _⟩ => ⟨S850000x1, .i32⟩
  | .hbm, ⟨59, _⟩ => ⟨S850000x128, .bf16⟩
  | .hbm, ⟨60, _⟩ => ⟨S850000x128, .f32⟩
  | .hbm, ⟨61, _⟩ => ⟨S850000x128, .f32⟩
  | .hbm, ⟨62, _⟩ => ⟨S_, .f32⟩
  | .hbm, ⟨63, _⟩ => ⟨S50000x128, .f32⟩
  | .hbm, ⟨64, _⟩ => ⟨S850000x1, .i32⟩
  | .hbm, ⟨65, _⟩ => ⟨S50000x128, .f32⟩
  | .hbm, ⟨66, _⟩ => ⟨S50000x64, .f32⟩
  | .hbm, ⟨67, _⟩ => ⟨S50000x64, .f32⟩
  | .local _ .vmem, ⟨0, _⟩ => ⟨S5000x256, .f32⟩
  | .local _ .vmem, ⟨1, _⟩ => ⟨S5000x256, .f32⟩
  | .local _ .vmem, ⟨2, _⟩ => ⟨S256x64, .f32⟩
  | .local _ .vmem, ⟨3, _⟩ => ⟨S256x64, .f32⟩
  | .local _ .vmem, ⟨4, _⟩ => ⟨S5000x128, .bf16⟩
  | .local _ .vmem, ⟨5, _⟩ => ⟨S5000x128, .bf16⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c : Ref sig .tc := ⟨.hbm, 19, rfl⟩
abbrev main_v11 : Ref sig .tc := ⟨.hbm, 20, rfl⟩
abbrev main_v12 : Ref sig .tc := ⟨.hbm, 21, rfl⟩
abbrev main_c_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_c_3 : Ref sig .tc := ⟨.hbm, 28, rfl⟩
abbrev main_v18 : Ref sig .tc := ⟨.hbm, 29, rfl⟩
abbrev main_v19 : Ref sig .tc := ⟨.hbm, 30, rfl⟩
abbrev main_c_4 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_c_5 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_call0_v0 : Ref sig .tc := ⟨.hbm, 47, rfl⟩
abbrev main_call0_v1 : Ref sig .tc := ⟨.hbm, 48, rfl⟩
abbrev main_call0_v2 : Ref sig .tc := ⟨.hbm, 49, rfl⟩
abbrev main_v34 : Ref sig .tc := ⟨.hbm, 50, rfl⟩
abbrev main_c_6 : Ref sig .tc := ⟨.hbm, 51, rfl⟩
abbrev main_v35 : Ref sig .tc := ⟨.hbm, 52, rfl⟩
abbrev main_v36 : Ref sig .tc := ⟨.hbm, 53, rfl⟩
abbrev main_c_7 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_8 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x64_S256x64_0_0 : ∀ a, (![0, 0] : Fin 2 → Nat) a + S256x64.size a ≤ S256x64.size a
  h_S256x64 : 0 < S256x64.numel
  concatenates_S5000x64_S5000x64_S5000x128_d1 : Shape.Concatenates [S5000x64, S5000x64] S5000x128 1
  inb_S5000x128_S5000x128_0_0 : ∀ a, (![0, 0] : Fin 2 → Nat) a + S5000x128.size a ≤ S5000x128.size a
  h_S5000x128 : 0 < S5000x128.numel
  packedbf16_S5000x128_S5000x128_0_0 : (Rect.unit (s := S5000x128) ![0, 0] S5000x128.size inb_S5000x128_S5000x128_0_0).PackedRows (EltTy.packing .bf16)
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S_S128 : S_.BroadcastsInDim S128 (![] : Fin 0 → Fin S128.rank)
  bcast_S128_S1x128_1 : S128.BroadcastsInDim S1x128 (![1] : Fin 1 → Fin S1x128.rank)
  bcast_S1x128_S850000x128_0_1 : S1x128.BroadcastsInDim S850000x128 (![0, 1] : Fin 2 → Fin S850000x128.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  slices_S50000x128_S50000x64_0_0 : S50000x128.Slices ![0, 0] S50000x64
  slices_S50000x128_S50000x64_0_64 : S50000x128.Slices ![0, 64] S50000x64
  dot_S5000x256_S256x64_S5000x64_1_0_0_1_n_n_wf : DotDims.WF S5000x256 S256x64 S5000x64 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S50000x256.size a
  hwx0_0 : ∀ i : grid0.Coords, EltTy.bits .f32 = 32 ∨ (Rect.block (s := S50000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x64.size a ≤ S256x64.size a
  hwx0_1 : ∀ i : grid0.Coords, EltTy.bits .f32 = 32 ∨ (Rect.block (s := S256x64) S256x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x64.size a ≤ S256x64.size a
  hwx0_2 : ∀ i : grid0.Coords, EltTy.bits .f32 = 32 ∨ (Rect.block (s := S256x64) S256x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .bf16 = 32 ∨ (Rect.block (s := S50000x128) S5000x128.size (cc0_transform_3 i) (hinb0_3 i)).WholeWords (EltTy.packing .bf16)

variable [Facts₀]

def dot_S5000x256_S256x64_S5000x64_1_0_0_1_n_n : DotDims S5000x256 S256x64 S5000x64 where
  lhsContracting := [1]
  rhsContracting := [0]
  lhsNonContracting := [0]
  rhsNonContracting := [1]
  lhsBatch := []
  rhsBatch := []
  wf := dot_S5000x256_S256x64_S5000x64_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S50000x256 : Shape := ⟨2, ![50000, 256]⟩
abbrev S256x64 : Shape := ⟨2, ![256, 64]⟩
abbrev S800000 : Shape := ⟨1, ![800000]⟩
abbrev S50000x64 : Shape := ⟨2, ![50000, 64]⟩
abbrev S_ : Shape := ⟨0, ![]⟩
abbrev S50000 : Shape := ⟨1, ![50000]⟩
abbrev S850000 : Shape := ⟨1, ![850000]⟩
abbrev S850000x1 : Shape := ⟨2, ![850000, 1]⟩
abbrev S850000x64 : Shape := ⟨2, ![850000, 64]⟩

abbrev nBuf : Space → Nat
  | .hbm => 86
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S256x64, .f32⟩
  | .hbm, ⟨2, _⟩ => ⟨S256x64, .f32⟩
  | .hbm, ⟨3, _⟩ => ⟨S800000, .i32⟩
  | .hbm, ⟨4, _⟩ => ⟨S800000, .i32⟩
  | .hbm, ⟨5, _⟩ => ⟨S50000x64, .f32⟩
  | .hbm, ⟨6, _⟩ => ⟨S_, .f32⟩
  | .hbm, ⟨7, _⟩ => ⟨S50000x64, .f32⟩
  | .hbm, ⟨8, _⟩ => ⟨S50000x64, .f32⟩
  | .hbm, ⟨9, _⟩ => ⟨S50000x64, .f32⟩
  | .hbm, ⟨10, _⟩ => ⟨S_, .f32⟩
  | .hbm, ⟨11, _⟩ => ⟨S50000x64, .f32⟩
  | .hbm, ⟨12, _⟩ => ⟨S50000x64, .f32⟩
  | .hbm, ⟨13, _⟩ => ⟨S_, .f32⟩
  | .hbm, ⟨14, _⟩ => ⟨S50000x64, .f32⟩
  | .hbm, ⟨15, _⟩ => ⟨S50000x64, .f32⟩
  | .hbm, ⟨16, _⟩ => ⟨S50000x64, .f32⟩
  | .hbm, ⟨17, _⟩ => ⟨S50000, .i32⟩
  | .hbm, ⟨18, _⟩ => ⟨S850000, .i32⟩
  | .hbm, ⟨19, _⟩ => ⟨S850000, .i32⟩
  | .hbm, ⟨20, _⟩ => ⟨S_, .f32⟩
  | .hbm, ⟨21, _⟩ => ⟨S850000, .f32⟩
  | .hbm, ⟨22, _⟩ => ⟨S_, .f32⟩
  | .hbm, ⟨23, _⟩ => ⟨S50000, .f32⟩
  | .hbm, ⟨24, _⟩ => ⟨S850000x1, .i32⟩
  | .hbm, ⟨25, _⟩ => ⟨S50000, .f32⟩
  | .hbm, ⟨26, _⟩ => ⟨S_, .f32⟩
  | .hbm, ⟨27, _⟩ => ⟨S50000, .f32⟩
  | .hbm, ⟨28, _⟩ => ⟨S850000x1, .i32⟩
  | .hbm, ⟨29, _⟩ => ⟨S50000, .f32⟩
  | .hbm, ⟨30, _⟩ => ⟨S_, .i32⟩
  | .hbm, ⟨31, _⟩ => ⟨S850000, .i32⟩
  | .hbm, ⟨32, _⟩ => ⟨S850000, .i1⟩
  | .hbm, ⟨33, _⟩ => ⟨S_, .i32⟩
  | .hbm, ⟨34, _⟩ => ⟨S850000, .i32⟩
  | .hbm, ⟨35, _⟩ => ⟨S850000, .i32⟩
  | .hbm, ⟨36, _⟩ => ⟨S850000, .i32⟩
  | .hbm, ⟨37, _⟩ => ⟨S850000x1, .i32⟩
  | .hbm, ⟨38, _⟩ => ⟨S850000, .f32⟩
  | .hbm, ⟨39, _⟩ => ⟨S_, .i32⟩
  | .hbm, ⟨40, _⟩ => ⟨S850000, .i32⟩
  | .hbm, ⟨41, _⟩ => ⟨S850000, .i1⟩
  | .hbm, ⟨42, _⟩ => ⟨S_, .i32⟩
  | .hbm, ⟨43, _⟩ => ⟨S850000, .i32⟩
  | .hbm, ⟨44, _⟩ => ⟨S850000, .i32⟩
  | .hbm, ⟨45, _⟩ => ⟨S850000, .i32⟩
  | .hbm, ⟨46, _⟩ => ⟨S850000x1, .i32⟩
  | .hbm, ⟨47, _⟩ => ⟨S850000, .f32⟩
  | .hbm, ⟨48, _⟩ => ⟨S850000, .f32⟩
  | .hbm, ⟨49, _⟩ => ⟨S850000, .f32⟩
  | .hbm, ⟨50, _⟩ => ⟨S850000, .f32⟩
  | .hbm, ⟨51, _⟩ => ⟨S50000x64, .f32⟩
  | .hbm, ⟨52, _⟩ => ⟨S50000x64, .f32⟩
  | .hbm, ⟨53, _⟩ => ⟨S50000x64, .f32⟩
  | .hbm, ⟨54, _⟩ => ⟨S_, .i32⟩
  | .hbm, ⟨55, _⟩ => ⟨S850000, .i32⟩
  | .hbm, ⟨56, _⟩ => ⟨S850000, .i1⟩
  | .hbm, ⟨57, _⟩ => ⟨S_, .i32⟩
  | .hbm, ⟨58, _⟩ => ⟨S850000, .i32⟩
  | .hbm, ⟨59, _⟩ => ⟨S850000, .i32⟩
  | .hbm, ⟨60, _⟩ => ⟨S850000, .i32⟩
  | .hbm, ⟨61, _⟩ => ⟨S850000x1, .i32⟩
  | .hbm, ⟨62, _⟩ => ⟨S850000x64, .f32⟩
  | .hbm, ⟨63, _⟩ => ⟨S850000x1, .f32⟩
  | .hbm, ⟨64, _⟩ => ⟨S850000x64, .f32⟩
  | .hbm, ⟨65, _⟩ => ⟨S850000x64, .f32⟩
  | .hbm, ⟨66, _⟩ => ⟨S_, .f32⟩
  | .hbm, ⟨67, _⟩ => ⟨S50000x64, .f32⟩
  | .hbm, ⟨68, _⟩ => ⟨S850000x1, .i32⟩
  | .hbm, ⟨69, _⟩ => ⟨S50000x64, .f32⟩
  | .hbm, ⟨70, _⟩ => ⟨S_, .i32⟩
  | .hbm, ⟨71, _⟩ => ⟨S850000, .i32⟩
  | .hbm, ⟨72, _⟩ => ⟨S850000, .i1⟩
  | .hbm, ⟨73, _⟩ => ⟨S_, .i32⟩
  | .hbm, ⟨74, _⟩ => ⟨S850000, .i32⟩
  | .hbm, ⟨75, _⟩ => ⟨S850000, .i32⟩
  | .hbm, ⟨76, _⟩ => ⟨S850000, .i32⟩
  | .hbm, ⟨77, _⟩ => ⟨S850000x1, .i32⟩
  | .hbm, ⟨78, _⟩ => ⟨S850000x64, .f32⟩
  | .hbm, ⟨79, _⟩ => ⟨S850000x1, .f32⟩
  | .hbm, ⟨80, _⟩ => ⟨S850000x64, .f32⟩
  | .hbm, ⟨81, _⟩ => ⟨S850000x64, .f32⟩
  | .hbm, ⟨82, _⟩ => ⟨S_, .f32⟩
  | .hbm, ⟨83, _⟩ => ⟨S50000x64, .f32⟩
  | .hbm, ⟨84, _⟩ => ⟨S850000x1, .i32⟩
  | .hbm, ⟨85, _⟩ => ⟨S50000x64, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_cst : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_call1_cst : Ref sig .tc := ⟨.hbm, 10, rfl⟩
abbrev main_call1_v0 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_0 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_3 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_4 : Ref sig .tc := ⟨.hbm, 39, rfl⟩
abbrev main_v24 : Ref sig .tc := ⟨.hbm, 40, rfl⟩
abbrev main_v25 : Ref sig .tc := ⟨.hbm, 41, rfl⟩
abbrev main_c_5 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_c_6 : Ref sig .tc := ⟨.hbm, 54, rfl⟩
abbrev main_v37 : Ref sig .tc := ⟨.hbm, 55, rfl⟩
abbrev main_v38 : Ref sig .tc := ⟨.hbm, 56, rfl⟩
abbrev main_c_7 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_8 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_c_9 : Ref sig .tc := ⟨.hbm, 70, rfl⟩
abbrev main_v50 : Ref sig .tc := ⟨.hbm, 71, rfl⟩
abbrev main_v51 : Ref sig .tc := ⟨.hbm, 72, rfl⟩
abbrev main_c_10 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_cst_11 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩

abbrev nD : Nat := 1
abbrev τ : Topo := Topo.v7x

variable {F : FTy → Type} [FloatOps F]

class Facts₀ : Prop where
  bcast_S_S50000x64 : S_.BroadcastsInDim S50000x64 (![] : Fin 0 → Fin S50000x64.rank)
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x64_0_1 : S850000x1.BroadcastsInDim S850000x64 (![0, 1] : Fin 2 → Fin S850000x64.rank)
  dot_S50000x256_S256x64_S50000x64_1_0_0_1_n_n_wf : DotDims.WF S50000x256 S256x64 S50000x64 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1

variable [Facts₀]

def dot_S50000x256_S256x64_S50000x64_1_0_0_1_n_n : DotDims S50000x256 S256x64 S50000x64 where
  lhsContracting := [1]
  rhsContracting := [0]
  lhsNonContracting := [0]
  rhsNonContracting := [1]
  lhsBatch := []
  rhsBatch := []
  wf := dot_S50000x256_S256x64_S50000x64_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

class Facts : Prop extends Facts₀ where

variable [Facts]
-- ==== Proof.LibPlainDot.lean ====
/-
  A plain matrix product read at an entry, for any extents.

  The dimension numbers of a product of an `n` × `K` matrix with a `K` × `M` matrix that contracts the first matrix's
  columns against the second's rows index their sum by the contraction shape's positions. When that shape has the one
  axis of extent `K` and the two operand indices at output entry (p, c) and contraction position `k` are (p, k) and
  (k, c) — four coordinate facts a program's literal dimension numbers decide — the sum is the textbook one,
  `∑ k : Fin K, l (p, k) · r (k, c)`. On the extended reals this reads a vector unit's matrix product into a zero
  accumulator and the host's `dot_general` alike.
-/
import Idealize.ShloMosaic.Lib.ValueIdx
import Idealize.ShloMosaic.PureOps.Ideal.Laws

noncomputable section

open scoped BigOperators

namespace Cert.PlainDot

open Idealize.ShloMosaic Idealize.ShloMosaic.ValueIdx

/-- The contraction's sum, re-indexed by the one contracted coordinate. -/
theorem sum_contr_eq {n K M : Nat} (D : DotDims (⟨2, ![n, K]⟩ : Shape) (⟨2, ![K, M]⟩ : Shape) (⟨2, ![n, M]⟩ : Shape))
    (hr : D.contr.rank = 1) (hs : D.contr.size ⟨0, by omega⟩ = K)
    (l0 : ∀ (i : (⟨2, ![n, M]⟩ : Shape).Idx) (q : D.contr.Idx), (D.lhsIdx i q 0).val = (i 0).val)
    (l1 : ∀ (i : (⟨2, ![n, M]⟩ : Shape).Idx) (q : D.contr.Idx), (D.lhsIdx i q 1).val = (q ⟨0, by omega⟩).val)
    (r0 : ∀ (i : (⟨2, ![n, M]⟩ : Shape).Idx) (q : D.contr.Idx), (D.rhsIdx i q 0).val = (q ⟨0, by omega⟩).val)
    (r1 : ∀ (i : (⟨2, ![n, M]⟩ : Shape).Idx) (q : D.contr.Idx), (D.rhsIdx i q 1).val = (i 1).val)
    (l : (⟨2, ![n, K]⟩ : Shape).Idx → EReal) (r : (⟨2, ![K, M]⟩ : Shape).Idx → EReal) (p : Fin n) (c : Fin M) :
    ∑ q : D.contr.Idx, l (D.lhsIdx (ix2 p c) q) * r (D.rhsIdx (ix2 p c) q) = ∑ k : Fin K, l (ix2 p k) * r (ix2 k c) := by
  rw [← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact l0 _ _
    | ⟨1, _⟩ => exact (l1 _ _).trans hk)
  have er : D.rhsIdx (ix2 p c) ((contrEquiv1 D K hr hs).symm k) = ix2 k c := funext fun a => Fin.ext (by
    match a with
    | ⟨0, _⟩ => exact (r0 _ _).trans hk
    | ⟨1, _⟩ => exact r1 _ _)
  rw [el, er]

/-- A vector unit's matrix product into the zero accumulator, at entry (p, c): `∑ k, lhs (p, k) · rhs (k, c)`. -/
theorem matmul_zero_apply {n K M : Nat} {φ₁ φ₂ : FTy}
    (D : DotDims (⟨2, ![n, K]⟩ : Shape) (⟨2, ![K, M]⟩ : Shape) (⟨2, ![n, M]⟩ : Shape))
    (hr : D.contr.rank = 1) (hs : D.contr.size ⟨0, by omega⟩ = K)
    (l0 : ∀ (i : (⟨2, ![n, M]⟩ : Shape).Idx) (q : D.contr.Idx), (D.lhsIdx i q 0).val = (i 0).val)
    (l1 : ∀ (i : (⟨2, ![n, M]⟩ : Shape).Idx) (q : D.contr.Idx), (D.lhsIdx i q 1).val = (q ⟨0, by omega⟩).val)
    (r0 : ∀ (i : (⟨2, ![n, M]⟩ : Shape).Idx) (q : D.contr.Idx), (D.rhsIdx i q 0).val = (q ⟨0, by omega⟩).val)
    (r1 : ∀ (i : (⟨2, ![n, M]⟩ : Shape).Idx) (q : D.contr.Idx), (D.rhsIdx i q 1).val = (i 1).val)
    (prec : Option ContractPrecision) (lhs : FVec Ideal (⟨2, ![n, K]⟩ : Shape) φ₁) (rhs : FVec Ideal (⟨2, ![K, M]⟩ : Shape) φ₂)
    (p : Fin n) (c : Fin M) :
    FloatOps.matmul D prec lhs rhs (constant (⟨2, ![n, M]⟩ : Shape) .f32 0x00000000#32) (ix2 p c)
      = ∑ k : Fin K, (lhs (ix2 p k) : EReal) * (rhs (ix2 k c) : EReal) :=
  (Ideal.matmul_constant_zero_apply D prec lhs rhs (ix2 p c)).trans (sum_contr_eq D hr hs l0 l1 r0 r1 lhs rhs p c)

/-- The host's `dot_general`, at entry (p, c): the same sum. -/
theorem dotGeneral_apply {n K M : Nat} {φ₁ φ₂ : FTy}
    (D : DotDims (⟨2, ![n, K]⟩ : Shape) (⟨2, ![K, M]⟩ : Shape) (⟨2, ![n, M]⟩ : Shape))
    (hr : D.contr.rank = 1) (hs : D.contr.size ⟨0, by omega⟩ = K)
    (l0 : ∀ (i : (⟨2, ![n, M]⟩ : Shape).Idx) (q : D.contr.Idx), (D.lhsIdx i q 0).val = (i 0).val)
    (l1 : ∀ (i : (⟨2, ![n, M]⟩ : Shape).Idx) (q : D.contr.Idx), (D.lhsIdx i q 1).val = (q ⟨0, by omega⟩).val)
    (r0 : ∀ (i : (⟨2, ![n, M]⟩ : Shape).Idx) (q : D.contr.Idx), (D.rhsIdx i q 0).val = (q ⟨0, by omega⟩).val)
    (r1 : ∀ (i : (⟨2, ![n, M]⟩ : Shape).Idx) (q : D.contr.Idx), (D.rhsIdx i q 1).val = (i 1).val)
    (prec : Option ContractPrecision) (sched : HostSchedule)
    (lhs : FVec Ideal (⟨2, ![n, K]⟩ : Shape) φ₁) (rhs : FVec Ideal (⟨2, ![K, M]⟩ : Shape) φ₂) (p : Fin n) (c : Fin M) :
    FloatOps.dotGeneral D prec sched lhs rhs (ix2 p c) = ∑ k : Fin K, (lhs (ix2 p k) : EReal) * (rhs (ix2 k c) : EReal) :=
  (Ideal.dotGeneral_apply D prec sched lhs rhs (ix2 p c)).trans (sum_contr_eq D hr hs l0 l1 r0 r1 lhs rhs p c)

end Cert.PlainDot

end
-- ==== Proof.LibConcatCols.lean ====
/-
  Two matrices with the same number of rows laid side by side (a concatenation along axis 1), read at an
  entry: the entry in row `p` and column `c` of `[x₁ | x₂]` is `x₁ (p, c)` when `c` is a column of the first
  matrix, and `x₂ (p, c - n₁)` when it lies past the first matrix's `n₁` columns. General in the extents.
-/
import Idealize.ShloMosaic.Lib.Pipeline.Value
import Idealize.ShloMosaic.Lib.ValueIdx

namespace Idealize.ShloMosaic.ValueIdx

open Idealize.ShloMosaic

variable {α : Type}

/-- Row `p`, column `c` of `[x₁ | x₂]`, for a column `c` of the first matrix (`c = k < n₁`), is `x₁ (p, k)`. -/
theorem concatenate_cols_left {a n₁ n₂ N : Nat} (x₁ : (⟨2, ![a, n₁]⟩ : Shape).Idx → α) (x₂ : (⟨2, ![a, n₂]⟩ : Shape).Idx → α)
    (h : Shape.Concatenates [(⟨2, ![a, n₁]⟩ : Shape), (⟨2, ![a, n₂]⟩ : Shape)] (⟨2, ![a, N]⟩ : Shape) 1)
    (p : Fin a) (c : Fin N) (k : Fin n₁) (hc : c.val = k.val) :
    concatenate (⟨2, ![a, N]⟩ : Shape) 1 [⟨(⟨2, ![a, n₁]⟩ : Shape), x₁⟩, ⟨(⟨2, ![a, n₂]⟩ : Shape), x₂⟩] h (ix2 p c) = x₁ (ix2 p k) :=
  concatenate_pair_apply_left 1 x₁ x₂ h _ rfl _ (fun b => by
    match b with
    | ⟨0, _⟩ => rfl
    | ⟨1, _⟩ => exact hc.symm)

/-- Row `p`, column `c` of `[x₁ | x₂]`, for a column past the first matrix (`c = n₁ + k`), is `x₂ (p, k)`. -/
theorem concatenate_cols_right {a n₁ n₂ N : Nat} (x₁ : (⟨2, ![a, n₁]⟩ : Shape).Idx → α) (x₂ : (⟨2, ![a, n₂]⟩ : Shape).Idx → α)
    (h : Shape.Concatenates [(⟨2, ![a, n₁]⟩ : Shape), (⟨2, ![a, n₂]⟩ : Shape)] (⟨2, ![a, N]⟩ : Shape) 1)
    (p : Fin a) (c : Fin N) (k : Fin n₂) (hc : k.val + n₁ = c.val) :
    concatenate (⟨2, ![a, N]⟩ : Shape) 1 [⟨(⟨2, ![a, n₁]⟩ : Shape), x₁⟩, ⟨(⟨2, ![a, n₂]⟩ : Shape), x₂⟩] h (ix2 p c) = x₂ (ix2 p k) :=
  concatenate_pair_apply_right 1 x₁ x₂ h _ rfl rfl _
    (fun b hb => by
      match b with
      | ⟨0, _⟩ => rfl
      | ⟨1, _⟩ => exact absurd rfl hb)
    hc

end Idealize.ShloMosaic.ValueIdx
-- ==== Proof.Gate.lean ====
/-
  The gated projections, entry by entry, on the extended reals.

  For a matrix `x` of `n` rows and 256 columns and two weight matrices `wm`, `wv` of 256 rows and 64 columns,
  entry (p, c) of the two products is the plain inner product of row `p` with column `c`. Both are rectified
  (the larger of the entry and the word of 0.0); the rectified variance `v` gives the attention `exp (−1 · v)`;
  the gated mean is the rectified mean times the attention, and the gated variance is `v` times the attention
  taken twice, multiplied left to right. Every entry depends on ONE row of `x` only, so a block of rows of `x`
  gives the same rows of the result (`meanGate_rows`, `varGate_rows`). The two float words are kept as words.
-/
import Idealize.ShloMosaic.Lib.ValueIdx
import Idealize.ShloMosaic.PureOps.Ideal

noncomputable section

open scoped BigOperators

namespace Cert.Gate

open Idealize.ShloMosaic Idealize.ShloMosaic.ValueIdx

/-- The word of 0.0, as an extended real. -/
abbrev zeroW : EReal := Ideal.ofBits .f32 0x00000000#32
/-- The word of −1.0, as an extended real. -/
abbrev negOneW : EReal := Ideal.ofBits .f32 0xBF800000#32

/-- Entry (p, c) of `x · w`: the inner product of row p of x with column c of w. -/
def rowDot {n : Nat} (x : (⟨2, ![n, 256]⟩ : Shape).Idx → EReal) (w : (⟨2, ![256, 64]⟩ : Shape).Idx → EReal)
    (p : Fin n) (c : Fin 64) : EReal :=
  ∑ k : Fin 256, x (ix2 p k) * w (ix2 k c)

/-- The attention at (p, c): exp of minus the rectified variance projection. -/
def attn {n : Nat} (x : (⟨2, ![n, 256]⟩ : Shape).Idx → EReal) (wv : (⟨2, ![256, 64]⟩ : Shape).Idx → EReal)
    (p : Fin n) (c : Fin 64) : EReal :=
  Ideal.exp (negOneW * max (rowDot x wv p c) zeroW)

/-- The gated mean at (p, c). -/
def meanGate {n : Nat} (x : (⟨2, ![n, 256]⟩ : Shape).Idx → EReal) (wm wv : (⟨2, ![256, 64]⟩ : Shape).Idx → EReal)
    (p : Fin n) (c : Fin 64) : EReal :=
  max (rowDot x wm p c) zeroW * attn x wv p c

/-- The gated variance at (p, c). -/
def varGate {n : Nat} (x : (⟨2, ![n, 256]⟩ : Shape).Idx → EReal) (wv : (⟨2, ![256, 64]⟩ : Shape).Idx → EReal)
    (p : Fin n) (c : Fin 64) : EReal :=
  max (rowDot x wv p c) zeroW * attn x wv p c * attn x wv p c

/-- The inner product reads one row: two matrices that share a row share its products. -/
theorem rowDot_rows {n n' : Nat} (x : (⟨2, ![n, 256]⟩ : Shape).Idx → EReal) (x' : (⟨2, ![n', 256]⟩ : Shape).Idx → EReal)
    (w : (⟨2, ![256, 64]⟩ : Shape).Idx → EReal) (p : Fin n) (p' : Fin n') (h : ∀ k : Fin 256, x' (ix2 p' k) = x (ix2 p k))
    (c : Fin 64) : rowDot x' w p' c = rowDot x w p c := by
  unfold rowDot
  exact Finset.sum_congr rfl fun k _ => by rw [h k]

theorem meanGate_rows {n n' : Nat} (x : (⟨2, ![n, 256]⟩ : Shape).Idx → EReal) (x' : (⟨2, ![n', 256]⟩ : Shape).Idx → EReal)
    (wm wv : (⟨2, ![256, 64]⟩ : Shape).Idx → EReal) (p : Fin n) (p' : Fin n')
    (h : ∀ k : Fin 256, x' (ix2 p' k) = x (ix2 p k)) (c : Fin 64) : meanGate x' wm wv p' c = meanGate x wm wv p c := by
  unfold meanGate attn
  rw [rowDot_rows x x' wm p p' h c, rowDot_rows x x' wv p p' h c]

theorem varGate_rows {n n' : Nat} (x : (⟨2, ![n, 256]⟩ : Shape).Idx → EReal) (x' : (⟨2, ![n', 256]⟩ : Shape).Idx → EReal)
    (wv : (⟨2, ![256, 64]⟩ : Shape).Idx → EReal) (p : Fin n) (p' : Fin n')
    (h : ∀ k : Fin 256, x' (ix2 p' k) = x (ix2 p k)) (c : Fin 64) : varGate x' wv p' c = varGate x wv p c := by
  unfold varGate attn
  rw [rowDot_rows x x' wv p p' h c]

end Cert.Gate

end
-- ==== Proof.Payload.lean ====
/-
  What one grid point of the projection kernel stores, entry by entry.

  The body casts its block of 5000 rows of features and the two weight matrices (the casts are the identity on the
  extended reals), takes the two matrix products into a zero accumulator — entry (p, c) is the inner product of
  row p of the block with column c of the weights —, rectifies both, forms the attention exp (−1 · variance), gates
  the mean once and the variance twice, and lays the two 64-column results side by side in a 128-column block.
  So column c < 64 of row p holds the gated mean at (p, c) and column 64 + c the gated variance at (p, c).
-/
import proofs.«112042_j56719338111765_2_alg».proof.Proof.Gen.KernelIdeal.Skeleton
import proofs.«112042_j56719338111765_2_alg».proof.Proof.LibPlainDot
import proofs.«112042_j56719338111765_2_alg».proof.Proof.LibConcatCols
import proofs.«112042_j56719338111765_2_alg».proof.Proof.Gate
import Idealize.ShloMosaic.PureOps.Ideal

noncomputable section

open scoped BigOperators

namespace Cert.KernelIdeal.Payload

open Cert.KernelIdeal Cert.KernelIdeal.Gen Idealize.ShloMosaic Idealize.ShloMosaic.ValueIdx

/-! ## The product's dimension numbers, coordinate by coordinate -/

theorem lhs_row (i : S5000x64.Idx) (q : dot_S5000x256_S256x64_S5000x64_1_0_0_1_n_n.contr.Idx) :
    (dot_S5000x256_S256x64_S5000x64_1_0_0_1_n_n.lhsIdx i q 0).val = (i 0).val := by
  unfold DotDims.lhsIdx
  rw [dif_neg (show ¬(0 : Fin S5000x256.rank) ∈ dot_S5000x256_S256x64_S5000x64_1_0_0_1_n_n.lhsBatch by decide),
    dif_pos (show (0 : Fin S5000x256.rank) ∈ dot_S5000x256_S256x64_S5000x64_1_0_0_1_n_n.lhsNonContracting by decide)]
  rfl
theorem lhs_col (i : S5000x64.Idx) (q : dot_S5000x256_S256x64_S5000x64_1_0_0_1_n_n.contr.Idx) :
    (dot_S5000x256_S256x64_S5000x64_1_0_0_1_n_n.lhsIdx i q 1).val = (q ⟨0, by decide⟩).val :=
  dot_S5000x256_S256x64_S5000x64_1_0_0_1_n_n.lhsIdx_val_of_single rfl i q
theorem rhs_row (i : S5000x64.Idx) (q : dot_S5000x256_S256x64_S5000x64_1_0_0_1_n_n.contr.Idx) :
    (dot_S5000x256_S256x64_S5000x64_1_0_0_1_n_n.rhsIdx i q 0).val = (q ⟨0, by decide⟩).val :=
  dot_S5000x256_S256x64_S5000x64_1_0_0_1_n_n.rhsIdx_val_of_single rfl i q
theorem rhs_col (i : S5000x64.Idx) (q : dot_S5000x256_S256x64_S5000x64_1_0_0_1_n_n.contr.Idx) :
    (dot_S5000x256_S256x64_S5000x64_1_0_0_1_n_n.rhsIdx i q 1).val = (i 1).val := by
  unfold DotDims.rhsIdx
  rw [dif_neg (show ¬(1 : Fin S256x64.rank) ∈ dot_S5000x256_S256x64_S5000x64_1_0_0_1_n_n.rhsBatch by decide),
    dif_pos (show (1 : Fin S256x64.rank) ∈ dot_S5000x256_S256x64_S5000x64_1_0_0_1_n_n.rhsNonContracting by decide)]
  rfl

/-- The body's product into the zero accumulator at (p, c) is the inner product of row p with column c. -/
theorem product_apply {φ₁ φ₂ : FTy} (x : FVec Ideal S5000x256 φ₁) (w : FVec Ideal S256x64 φ₂) (p : Fin 5000) (c : Fin 64) :
    matmul dot_S5000x256_S256x64_S5000x64_1_0_0_1_n_n none x w (constant S5000x64 .f32 0x00000000#32) (ix2 p c)
      = Gate.rowDot x w p c :=
  Cert.PlainDot.matmul_zero_apply dot_S5000x256_S256x64_S5000x64_1_0_0_1_n_n rfl rfl lhs_row lhs_col rhs_row rhs_col none x w p c

/-- The stored block in a column of its first half: the gated mean. -/
theorem stored_low (x0 : Vec Ideal S5000x256 .f32) (x1 x2 : Vec Ideal S256x64 .f32) (p : Fin 5000) (c : Fin 64) :
    (k0_pay1 (F := Ideal) x0 x1 x2 (ix2 p (⟨c.val, by omega⟩ : Fin 128)) : EReal) = Gate.meanGate x0 x1 x2 p c := by
  unfold k0_pay1
  rw [truncf_apply, concatenate_cols_left _ _ concatenates_S5000x64_S5000x64_S5000x128_d1 p (⟨c.val, by omega⟩ : Fin 128) c rfl,
    mulf_apply, maximumf_apply, product_apply]
  show max _ _ * FloatOps.exp (mulf _ (maximumf _ _) (ix2 p c)) = _
  rw [mulf_apply, maximumf_apply, product_apply]
  rfl

/-- The stored block in a column of its second half: the gated variance. -/
theorem stored_high (x0 : Vec Ideal S5000x256 .f32) (x1 x2 : Vec Ideal S256x64 .f32) (p : Fin 5000) (c : Fin 64) :
    (k0_pay1 (F := Ideal) x0 x1 x2 (ix2 p (⟨64 + c.val, by omega⟩ : Fin 128)) : EReal) = Gate.varGate x0 x2 p c := by
  unfold k0_pay1
  rw [truncf_apply, concatenate_cols_right _ _ concatenates_S5000x64_S5000x64_S5000x128_d1 p (⟨64 + c.val, by omega⟩ : Fin 128) c
      (by show c.val + 64 = 64 + c.val; omega),
    mulf_apply, mulf_apply, maximumf_apply, product_apply]
  show max _ _ * FloatOps.exp (mulf _ (maximumf _ _) (ix2 p c)) * FloatOps.exp (mulf _ (maximumf _ _) (ix2 p c)) = _
  rw [mulf_apply, maximumf_apply, product_apply]
  rfl

end Cert.KernelIdeal.Payload

end
-- ==== Proof.Region.lean ====
/-
  What the projection region leaves in its result array: the two gated tables side by side.

  The grid has 10 points. Point t stages rows 5000·t … 5000·t + 4999 of the features (all 256 columns) and the
  two whole weight matrices, and writes back rows 5000·t … 5000·t + 4999 of the 128-column result. An entry of the
  block depends on one row of the staged features only, so row r of the result holds, in column c < 64, the gated
  mean at (r, c) of the WHOLE feature matrix, and in column 64 + c the gated variance at (r, c). The ten blocks
  tile the 50000 rows, so after the region every entry of the result array is that value.
-/
import proofs.«112042_j56719338111765_2_alg».proof.Proof.Gen.KernelIdeal.Frame
import proofs.«112042_j56719338111765_2_alg».proof.Proof.Payload
import Idealize.ShloMosaic.Lib.Pipeline.Value

set_option maxRecDepth 16384

noncomputable section

namespace Cert.KernelIdeal.Region

open Cert.KernelIdeal Cert.KernelIdeal.Gen Idealize.ShloMosaic Idealize.ShloMosaic.TcCoe Idealize.ShloMosaic.ValueIdx
open Idealize.SL.Sem
open Idealize.ShloMosaic.Pipeline (Dat Cfg Window)

/-- The two gated tables side by side: column c < 64 the gated mean, column 64 + c the gated variance. -/
def wideTable (feat : S50000x256.Idx → EReal) (wm wv : S256x64.Idx → EReal) : S50000x128.Idx → EReal := fun i =>
  if h : (i 1).val < 64 then Gate.meanGate feat wm wv (⟨(i 0).val, (i 0).isLt⟩ : Fin 50000) (⟨(i 1).val, h⟩ : Fin 64)
  else Gate.varGate feat wv (⟨(i 0).val, (i 0).isLt⟩ : Fin 50000)
    (⟨(i 1).val - 64, by have := (i 1).isLt; have e : S50000x128.size 1 = 128 := rfl; omega⟩ : Fin 64)

theorem wideTable_low (feat : S50000x256.Idx → EReal) (wm wv : S256x64.Idx → EReal) (r : Fin 50000) (c : Fin 64) :
    wideTable feat wm wv (ix2 r (⟨c.val, by omega⟩ : Fin 128)) = Gate.meanGate feat wm wv r c := by
  unfold wideTable
  rw [dif_pos (show ((ix2 r (⟨c.val, by omega⟩ : Fin 128)) 1).val < 64 from c.isLt)]

theorem wideTable_high (feat : S50000x256.Idx → EReal) (wm wv : S256x64.Idx → EReal) (r : Fin 50000) (c : Fin 64) :
    wideTable feat wm wv (ix2 r (⟨64 + c.val, by omega⟩ : Fin 128)) = Gate.varGate feat wv r c := by
  unfold wideTable
  rw [dif_neg (show ¬((ix2 r (⟨64 + c.val, by omega⟩ : Fin 128)) 1).val < 64 from by show ¬(64 + c.val < 64); omega)]
  congr 1
  exact Fin.ext (by show 64 + c.val - 64 = c.val; omega)

/-- Row p of block b is a row of the array. -/
theorem row_lt (b : Nat) (hb : b < 10) (p : Fin 5000) : b * 5000 + p.val < 50000 := by
  have := p.isLt; omega

/-- One entry of a stored block is the wide table's entry at the block's place in the array: the block's row p is row
    b·5000 + p of the array (`hx0`), the weights are staged whole. -/
theorem block_entry (x0 : Vec Ideal S5000x256 .f32) (x1 x2 : Vec Ideal S256x64 .f32)
    (feat : S50000x256.Idx → EReal) (b : Nat) (hb : b < 10)
    (hx0 : ∀ (p : Fin 5000) (k : Fin 256), (x0 (ix2 p k) : EReal) = feat (ix2 (⟨b * 5000 + p.val, row_lt b hb p⟩ : Fin 50000) k))
    (p : Fin 5000) (q : Fin 128) (i : S50000x128.Idx) (h0 : (i 0).val = b * 5000 + p.val) (h1 : (i 1).val = q.val) :
    (k0_pay1 (F := Ideal) x0 x1 x2 (ix2 p q) : EReal) = wideTable feat x1 x2 i := by
  have hi : i = ix2 (⟨b * 5000 + p.val, row_lt b hb p⟩ : Fin 50000) q := by
    funext a; refine Fin.ext ?_
    match a with
    | ⟨0, _⟩ => exact h0
    | ⟨1, _⟩ => exact h1
  rw [hi]
  by_cases hq : q.val < 64
  · have e : q = (⟨(⟨q.val, hq⟩ : Fin 64).val, by omega⟩ : Fin 128) := rfl
    rw [e, Payload.stored_low, wideTable_low]
    exact (Gate.meanGate_rows feat x0 x1 x2 _ p (fun k => hx0 p k) _)
  · have hq' : q.val - 64 < 64 := by have := q.isLt; omega
    have e : q = (⟨64 + (⟨q.val - 64, hq'⟩ : Fin 64).val, by show 64 + (q.val - 64) < 128; omega⟩ : Fin 128) :=
      Fin.ext (by show q.val = 64 + (q.val - 64); omega)
    rw [e, Payload.stored_high, wideTable_high]
    exact (Gate.varGate_rows feat x0 x2 _ p (fun k => hx0 p k) _)

variable (m : (ℓ : Loc nD τ sig) → Buf (Elt Ideal) ℓ)

theorem origin : (![0, 0] : Fin 2 → Nat) = fun _ => 0 := funext fun a => by fin_cases a <;> rfl

/-- The printed index maps over the grid: the feature window moves with the result window down the rows, every
    other block index is 0, and the result's row block index is below 10. -/
theorem index_facts : ∀ t : Fin cfg0.N, win0_0.index t (0 : Fin 2) = win0_3.index t (0 : Fin 2)
    ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (1 : Fin 2) = 0 ∧ win0_3.index t (0 : Fin 2) < 10 :=
  (by decide +kernel : ∀ t : Fin grid0.N, _)

/-- Every row block is some point's. -/
theorem index_onto : ∀ q0 : Fin 10, ∃ t : Fin cfg0.N, win0_3.index t = ![q0.val, 0] :=
  (by decide +kernel : ∀ q0 : Fin 10, ∃ t : Fin grid0.N, win0_3.index t = ![q0.val, 0])

/-- WHAT POINT t WRITES BACK is block t of the wide table of the arrays as the region finds them. -/
theorem flushed_eq (c : Dev nD) (t : Fin cfg0.N) :
    (dats m 0 c).flushed 3 t = ((cfg0.win 3).blk t).view.read (Elt Ideal)
      (wideTable (V m c main_arg0) (V m c main_arg1) (V m c main_arg2)) := by
  show (cfg0.win 3).cut (grid0.coords t) ((dats m 0 c).after 3 t) = _
  rw [after0_3]
  unfold out0_3
  rw [View.canon_unit_zero origin]
  simp only [View.ld_unit_zero (S := S5000x256) origin, View.ld_unit_zero (S := S256x64) origin]
  obtain ⟨e0, e1, e2, e3, e4, e5, e6, e7⟩ := index_facts t
  have hw1 : iblk m c 1 t = V m c main_arg1 := by
    funext y
    show V m c main_arg1 (((cfg0.win 1).blk t).view.emb y) = V m c main_arg1 y
    refine congrArg _ (funext fun a => Fin.ext ?_)
    match a with
    | ⟨0, _⟩ => show win0_1.index t (0 : Fin 2) * 256 + 1 * (y 0).val = (y 0).val; omega
    | ⟨1, _⟩ => show win0_1.index t (1 : Fin 2) * 64 + 1 * (y 1).val = (y 1).val; omega
  have hw2 : iblk m c 2 t = V m c main_arg2 := by
    funext y
    show V m c main_arg2 (((cfg0.win 2).blk t).view.emb y) = V m c main_arg2 y
    refine congrArg _ (funext fun a => Fin.ext ?_)
    match a with
    | ⟨0, _⟩ => show win0_2.index t (0 : Fin 2) * 256 + 1 * (y 0).val = (y 0).val; omega
    | ⟨1, _⟩ => show win0_2.index t (1 : Fin 2) * 64 + 1 * (y 1).val = (y 1).val; omega
  rw [hw1, hw2]
  funext j
  obtain ⟨p, q, rfl⟩ : ∃ (p : Fin 5000) (q : Fin 128), j = ix2 p q := ⟨j 0, j 1, eq_ix2 j⟩
  refine block_entry (iblk m c 0 t) (V m c main_arg1) (V m c main_arg2) (V m c main_arg0) (win0_3.index t (0 : Fin 2)) e7
    (fun p' k => ?_) p q (((cfg0.win 3).blk t).view.emb (ix2 p q)) ?_ ?_
  · show V m c main_arg0 (((cfg0.win 0).blk t).view.emb (ix2 p' k)) = _
    refine congrArg _ (funext fun a => Fin.ext ?_)
    match a with
    | ⟨0, _⟩ => show win0_0.index t (0 : Fin 2) * 5000 + 1 * p'.val = win0_3.index t (0 : Fin 2) * 5000 + p'.val; omega
    | ⟨1, _⟩ => show win0_0.index t (1 : Fin 2) * 256 + 1 * k.val = k.val; omega
  · show win0_3.index t (0 : Fin 2) * 5000 + 1 * p.val = win0_3.index t (0 : Fin 2) * 5000 + p.val; omega
  · show win0_3.index t (1 : Fin 2) * 128 + 1 * q.val = q.val; omega

/-- An index of the array is in point t's block iff each coordinate is in the block's range on its axis. -/
theorem mem_blk (t : Fin cfg0.N) (i : S50000x128.Idx) :
    i ∈ ((cfg0.win 3).blk t).view.set ↔ ∀ a : Fin 2, win0_3.index t a * S5000x128.size a ≤ (i a).val
      ∧ (i a).val < win0_3.index t a * S5000x128.size a + S5000x128.size a := by
  show i ∈ ((View.whole main_v0).slice (win0_3.rect t)).set ↔ _
  rw [View.set_slice_whole, Rect.mem_set_unit]
  exact Iff.rfl

/-- Every entry of the result array is in some point's block: row r is in the block of point r / 5000. -/
theorem covered (i : S50000x128.Idx) :
    ∃ t : Fin cfg0.N, (cfg0.win 3).flush t = true ∧ i ∈ ((cfg0.win 3).blk t).view.set := by
  have hi0 : (i 0).val < 50000 := (i 0).isLt
  have hi1 : (i 1).val < 128 := (i 1).isLt
  obtain ⟨t, ht⟩ := index_onto ⟨(i 0).val / 5000, by omega⟩
  have q0 : win0_3.index t (0 : Fin 2) = (i 0).val / 5000 := congrFun ht 0
  have q1 : win0_3.index t (1 : Fin 2) = 0 := congrFun ht 1
  refine ⟨t, flush0_3 t, ?_⟩
  rw [mem_blk]
  intro a
  match a with
  | ⟨0, _⟩ =>
    show win0_3.index t (0 : Fin 2) * 5000 ≤ (i 0).val ∧ (i 0).val < win0_3.index t (0 : Fin 2) * 5000 + 5000
    omega
  | ⟨1, _⟩ =>
    show win0_3.index t (1 : Fin 2) * 128 ≤ (i 1).val ∧ (i 1).val < win0_3.index t (1 : Fin 2) * 128 + 128
    omega

/-- THE RESULT ARRAY after the region: the wide table of the argument arrays. -/
theorem result_array (c : Dev nD) :
    (dats m 0 c).arrAt 3 cfg0.N = wideTable (m ((c : Thread nD τ).loc main_arg0)) (m ((c : Thread nD τ).loc main_arg1))
      (m ((c : Thread nD τ).loc main_arg2)) :=
  (dats m 0 c).arrAt_eq_of_cover 3 (wideTable (V m c main_arg0) (V m c main_arg1) (V m c main_arg2))
    (fun t _ => flushed_eq m c t) covered

end Cert.KernelIdeal.Region

end
-- ==== Proof.RefTables.lean ====
/-
  The reference's two tables, entry by entry.

  The reference multiplies the whole feature matrix by each weight matrix, rectifies, forms the attention
  exp (−1 · variance) and gates: entry (r, c) of its first table is the gated mean at (r, c), of its second the gated
  variance — the same formulas, of the same words for 0.0 and −1.0, as the kernel's stored blocks.
-/
import proofs.«112042_j56719338111765_2_alg».proof.Proof.Gen.ReferenceIdeal.Read
import proofs.«112042_j56719338111765_2_alg».proof.Proof.LibPlainDot
import proofs.«112042_j56719338111765_2_alg».proof.Proof.Gate
import Idealize.ShloMosaic.PureOps.Ideal

noncomputable section

open scoped BigOperators

namespace Cert.ReferenceIdeal.Tables

open Cert.ReferenceIdeal Cert.ReferenceIdeal.Gen Cert.ReferenceIdeal.Read Idealize.ShloMosaic Idealize.ShloMosaic.ValueIdx

/-- The host's product at (r, c) is the inner product of row r with column c. -/
theorem product_apply (x : FVec Ideal S50000x256 .f32) (w : FVec Ideal S256x64 .f32) (r : Fin 50000) (c : Fin 64) :
    Host.dotGeneral dot_S50000x256_S256x64_S50000x64_1_0_0_1_n_n none x w (ix2 r c) = Gate.rowDot x w r c := by
  simp only [Host.dotGeneral]
  exact Cert.PlainDot.dotGeneral_apply dot_S50000x256_S256x64_S50000x64_1_0_0_1_n_n rfl rfl
    lhs_main_v0_0 lhs_main_v0_1 rhs_main_v0_0 rhs_main_v0_1 none _ x w r c

/-- The reference's first table is the gated mean. -/
theorem mean_apply (x0 : FVec Ideal S50000x256 .f32) (x1 x2 : FVec Ideal S256x64 .f32) (r : Fin 50000) (c : Fin 64) :
    (val_main_v34 (F := Ideal) x0 x1 x2 (ix2 r c) : EReal) = Gate.meanGate x0 x1 x2 r c := by
  rw [val_main_v34_apply, val_main_v1_apply, val_main_v6_apply, val_main_v5_apply, val_main_v3_apply, val_main_v4_apply,
    val_main_call0_v0_apply, val_main_call1_v0_apply]
  unfold val_main_v0 val_main_v2
  rw [product_apply, product_apply]
  rfl

/-- The reference's second table is the gated variance. -/
theorem var_apply (x0 : FVec Ideal S50000x256 .f32) (x2 : FVec Ideal S256x64 .f32) (r : Fin 50000) (c : Fin 64) :
    (val_main_v36 (F := Ideal) x0 x2 (ix2 r c) : EReal) = Gate.varGate x0 x2 r c := by
  rw [val_main_v36_apply, val_main_v35_apply, val_main_v6_apply, val_main_v5_apply, val_main_v3_apply, val_main_v4_apply,
    val_main_call1_v0_apply]
  unfold val_main_v2
  rw [product_apply]
  rfl

end Cert.ReferenceIdeal.Tables

end
-- ==== Proof.LibScatterRows.lean ====
/-
  A reusable general lemma: the host's accumulating scatter of WHOLE ROWS into a rank-2 operand, read at an index,
  on the extended reals.

  What `segment_sum(u, idx, N)` (or `x.at[idx].add(u)`) of update rows `u : [E, C]` at an integer array `idx : [E]`
  lowers to: a scatter with an `add` body, update_window_dims `[1]`, inserted_window_dims `[0]`,
  scatter_dims_to_operand_dims `[0]` and index_vector_dim 1 over the indices as a column `[E, 1]`. Update entry
  `(e, c)` lands on operand entry `(idx[e, 0], c)`: the row is the index read as a SIGNED integer and NOT clamped, so
  an update whose row is negative or at least `N` lands nowhere and is dropped; the column is the update's own. On the
  extended reals the result at `(n, c)` is therefore the operand's entry plus the sum, over the update rows `e` whose
  index is `n`, of `u (e, c)`. Stated at any extents `N`, `E`, `C` and any index width.
-/
import Idealize.ShloMosaic.Lib.ValueIdx
import Idealize.ShloMosaic.PureOps.Ideal

noncomputable section

open scoped BigOperators

namespace Idealize.ShloMosaic.ScatterRows

open Idealize.ShloMosaic Idealize.ShloMosaic.ValueIdx

/-- The row scatter's dimension numbers for an operand `[N, C]`, scatter indices `[E, 1]` and updates `[E, C]`; their
    conditions `wf` are decided on a program's literal shapes. -/
abbrev rowDims (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

variable {N E C w : Nat} (wf : ScatterDims.WF ⟨2, ![N, C]⟩ ⟨2, ![E, 1]⟩ ⟨2, ![E, C]⟩ [1] [0] [0] 1)

/-- On the row axis the window of update `(e, c)` starts at the index `idx[e, 0]`, read signed. -/
theorem start_row (idx : IVec ⟨2, ![E, 1]⟩ w) (e : Fin E) (c : Fin C) :
    (rowDims N E C wf).start (ix2 e c) idx 0 = (idx (ix2 e (0 : Fin 1))).toInt := by
  unfold ScatterDims.start
  rw [dif_pos (show (0 : Fin 2) ∈ (rowDims N E C wf).scatterDimsToOperandDims from List.mem_singleton.mpr rfl)]
  have hsi : (rowDims N E C wf).siIdx (ix2 e c) ⟨List.idxOf (0 : Fin 2) (rowDims N E C wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- The column axis is not named by the index map: the window starts at `0` there. -/
theorem start_col (idx : IVec ⟨2, ![E, 1]⟩ w) (e : Fin E) (c : Fin C) :
    (rowDims N E C wf).start (ix2 e c) idx 1 = 0 := by
  unfold ScatterDims.start
  rw [dif_neg (show (1 : Fin 2) ∉ (rowDims N E C wf).scatterDimsToOperandDims from (by decide : (1 : Fin 2) ∉ [(0 : Fin 2)]))]

/-- The row axis is an inserted one: the window coordinate is `0` there. -/
theorem window_row (e : Fin E) (c : Fin C) : (rowDims N E C wf).window (ix2 e c) 0 = 0 := by
  unfold ScatterDims.window
  rw [dif_neg (show (0 : Fin 2) ∉ (rowDims N E C wf).sKept from
    (by decide : (0 : Fin 2) ∉ (List.finRange 2).filter (· ∉ [(0 : Fin 2)])))]

/-- On the column axis the window coordinate is the update's own column. -/
theorem window_col (e : Fin E) (c : Fin C) : (rowDims N E C wf).window (ix2 e c) 1 = c.val := by
  unfold ScatterDims.window
  rw [dif_pos (show (1 : Fin 2) ∈ (rowDims N E C wf).sKept from
    (by decide : (1 : Fin 2) ∈ (List.finRange 2).filter (· ∉ [(0 : Fin 2)])))]
  rfl

/-- Update `(e, c')` lands on `(n, c)` exactly when its index, read signed, is `n` and its column is `c`. -/
theorem resultIdx?_eq_some_iff (idx : IVec ⟨2, ![E, 1]⟩ w) (e : Fin E) (c' c : Fin C) (n : Fin N) :
    (rowDims N E C wf).resultIdx? (ix2 e c') idx = some (ix2 n c)
      ↔ ((idx (ix2 e (0 : Fin 1))).toInt = (n.val : Int) ∧ c' = c) := by
  have hn := n.isLt
  have hc' := c'.isLt
  unfold ScatterDims.resultIdx?
  by_cases h : ∀ a, 0 ≤ (rowDims N E C wf).start (ix2 e c') idx a + (rowDims N E C wf).window (ix2 e c') a
      ∧ (rowDims N E C wf).start (ix2 e c') idx a + (rowDims N E C wf).window (ix2 e c') a
        < ((⟨2, ![N, C]⟩ : Shape).size a : Int)
  · rw [dif_pos h, Option.some.injEq]
    have h0 := h 0
    rw [start_row, window_row] at h0
    constructor
    · intro heq
      have e0 := congrArg Fin.val (congrFun heq 0)
      have e1 := congrArg Fin.val (congrFun heq 1)
      change ((rowDims N E C wf).start (ix2 e c') idx 0 + ((rowDims N E C wf).window (ix2 e c') 0 : Nat)).toNat = n.val at e0
      change ((rowDims N E C wf).start (ix2 e c') idx 1 + ((rowDims N E C wf).window (ix2 e c') 1 : Nat)).toNat = c.val at e1
      rw [start_row, window_row] at e0
      rw [start_col, window_col] at e1
      refine ⟨by omega, Fin.ext (by omega)⟩
    · rintro ⟨ht, rfl⟩
      funext a
      refine Fin.ext ?_
      match a with
      | ⟨0, _⟩ =>
        show ((rowDims N E C wf).start (ix2 e c') idx 0 + ((rowDims N E C wf).window (ix2 e c') 0 : Nat)).toNat = n.val
        rw [start_row, window_row]; omega
      | ⟨1, _⟩ =>
        show ((rowDims N E C wf).start (ix2 e c') idx 1 + ((rowDims N E C wf).window (ix2 e c') 1 : Nat)).toNat = c'.val
        rw [start_col, window_col]; omega
  · rw [dif_neg h]
    refine ⟨fun hh => absurd hh (by simp), ?_⟩
    rintro ⟨ht, rfl⟩
    refine absurd (fun a => ?_) h
    match a with
    | ⟨0, _⟩ =>
      show 0 ≤ (rowDims N E C wf).start (ix2 e c') idx 0 + ((rowDims N E C wf).window (ix2 e c') 0 : Nat)
        ∧ (rowDims N E C wf).start (ix2 e c') idx 0 + ((rowDims N E C wf).window (ix2 e c') 0 : Nat) < (N : Int)
      rw [start_row, window_row]; omega
    | ⟨1, _⟩ =>
      show 0 ≤ (rowDims N E C wf).start (ix2 e c') idx 1 + ((rowDims N E C wf).window (ix2 e c') 1 : Nat)
        ∧ (rowDims N E C wf).start (ix2 e c') idx 1 + ((rowDims N E C wf).window (ix2 e c') 1 : Nat) < (C : Int)
      rw [start_col, window_col]; omega

/-- THE ROW SCATTER-ADD READ AT `(n, c)`, on the extended reals: the operand's entry plus the sum, over the update rows
    whose index (read signed) is `n`, of the update's entry in column `c`. -/
theorem scatterAdd_rows_apply (x : (⟨2, ![N, C]⟩ : Shape).Idx → EReal) (idx : IVec ⟨2, ![E, 1]⟩ w)
    (upd : (⟨2, ![E, C]⟩ : Shape).Idx → EReal) (n : Fin N) (c : Fin C) :
    Ideal.hostScatterAdd (rowDims N E C wf) x idx upd (ix2 n c)
      = x (ix2 n c) + ∑ e : Fin E, if (idx (ix2 e (0 : Fin 1))).toInt = (n.val : Int) then upd (ix2 e c) else 0 := by
  unfold Ideal.hostScatterAdd
  refine congrArg (x (ix2 n c) + ·) ?_
  rw [Finset.sum_filter, sum_idx2]
  refine Finset.sum_congr rfl fun e _ => ?_
  simp only [resultIdx?_eq_some_iff]
  by_cases ht : (idx (ix2 e (0 : Fin 1))).toInt = (n.val : Int)
  · simp only [ht, true_and, if_true]
    rw [Finset.sum_ite_eq' Finset.univ c (fun c' => upd (ix2 e c'))]
    simp
  · simp only [ht, false_and, if_false, Finset.sum_const_zero]

/-- The same for the host operation as a program spells it, at any record of these dimension numbers that is the row
    record (`hd`, by `rfl` on a program's literal record). -/
theorem host_scatterAdd_rows_apply {φ : FTy} (d : ScatterDims ⟨2, ![N, C]⟩ ⟨2, ![E, 1]⟩ ⟨2, ![E, C]⟩)
    (hd : d = rowDims N E C wf) (x : FVec Ideal ⟨2, ![N, C]⟩ φ) (idx : IVec ⟨2, ![E, 1]⟩ w)
    (upd : FVec Ideal ⟨2, ![E, C]⟩ φ) (n : Fin N) (c : Fin C) :
    Host.scatterAdd d x idx upd (ix2 n c)
      = x (ix2 n c) + ∑ e : Fin E, if (idx (ix2 e (0 : Fin 1))).toInt = (n.val : Int) then upd (ix2 e c) else 0 := by
  subst hd
  exact scatterAdd_rows_apply wf x idx upd n c

end Idealize.ShloMosaic.ScatterRows

end
-- ==== Proof.LibGatherRows.lean ====
/-
  A reusable general lemma: `stablehlo.gather` of WHOLE ROWS of a rank-2 operand, read at an index.

  What `x[idx]` of a table `x : [N, C]` at an integer array `idx : [R]` lowers to: a gather with offset_dims `[1]`,
  collapsed_slice_dims `[0]`, start_index_map `[0]`, index_vector_dim 1 and slice sizes `[1, C]` over the indices as a
  column `[R, 1]`. Result element `(r, c)` is `x` at row `idx[r, 0]` — read as a signed integer and clamped into
  `[0, N − 1]`, as the operation clamps every start index so that the slice fits — and column `c`: on the collapsed
  axis the operand index is the clamped start alone, on the other axis (which the start index map does not name) it is
  the result's own offset coordinate. Stated at any extents `N`, `R`, `C` and any index width.
-/
import Idealize.ShloMosaic.Lib.ValueIdx

noncomputable section

namespace Idealize.ShloMosaic.GatherRows

open Idealize.ShloMosaic Idealize.ShloMosaic.ValueIdx

variable {α : Type}

/-- The row gather's dimension numbers for an operand `[N, C]`, start indices `[R, 1]` and result `[R, C]`; their
    conditions `wf` are decided on a program's literal shapes. -/
abbrev rowDims (N R C : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(r, c)`: the operand at row `idx[r, 0]`, read signed and clamped into `[0, N − 1]`, and
    column `c`. -/
theorem gather_rows_apply {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (c : Fin C) :
    Host.gather (rowDims N R C wf) x idx (ix2 r c)
      = x (ix2 ⟨min (idx (ix2 r (0 : Fin 1))).toInt.toNat (N - 1), by omega⟩ c) := by
  unfold Host.gather
  congr 1
  funext a
  refine Fin.ext ?_
  match a with
  | ⟨0, _⟩ =>
    show (rowDims N R C wf).start (ix2 r c) idx 0 + (rowDims N R C wf).batchCoord (ix2 r c) 0
        + (rowDims N R C wf).offCoord (ix2 r c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N R C wf).startIndexMap from List.mem_singleton.mpr rfl)]
    have hsi : (rowDims N R C wf).siIdx (ix2 r c) ⟨List.idxOf (0 : Fin 2) (rowDims N R C wf).startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl
  | ⟨1, _⟩ =>
    show (rowDims N R C wf).start (ix2 r c) idx 1 + (rowDims N R C wf).batchCoord (ix2 r c) 1
        + (rowDims N R C wf).offCoord (ix2 r c) 1 = c.val
    rw [GatherDims.batchCoord_eq_zero _ _ _ List.not_mem_nil]
    unfold GatherDims.start
    rw [dif_neg (show (1 : Fin 2) ∉ (rowDims N R C wf).startIndexMap from (by decide : (1 : Fin 2) ∉ [(0 : Fin 2)]))]
    simp only [Nat.add_zero, Nat.zero_add]
    rfl

end Idealize.ShloMosaic.GatherRows

end
-- ==== Proof.LibJoinIota.lean ====
/-
  Reusable general lemmas: a vector joined from two, a vector of positions, and an index wrapped into range, each
  read at an index.

  * Two vectors of lengths A and B laid end to end along their one axis give a vector of length A + B: entry e is
    the first vector's entry e when e < A, and the second vector's entry e − A otherwise.
  * The vector of positions 0, 1, …, N − 1 as w-bit integers: entry i is the word of i, and, read signed at 32
    bits, the number i itself as long as N ≤ 2³¹.
  * Indexing with a possibly negative integer v into an axis of extent n first replaces v by v + n when v is
    negative (as a signed word) and keeps it otherwise; stated lane by lane for arrays of any shape, the comparand
    0 and the addend n being scalars spread over the shape. A lane that is non-negative is kept.
  * A vector spread as a one-column matrix, and a one-column matrix spread over C columns, read at (e, c).
-/
import Idealize.ShloMosaic.Lib.ValueIdx
import Idealize.ShloMosaic.Lib.IdealHost
import Idealize.ShloMosaic.Lib.Pipeline.Value

noncomputable section

namespace Idealize.ShloMosaic.JoinIota

open Idealize.ShloMosaic Idealize.ShloMosaic.ValueIdx

variable {α : Type}

/-! ## Two vectors laid end to end -/

/-- TWO VECTORS JOINED, READ IN THE FIRST: entry e of the join of a (length A) and b (length B), for e < A, is
    entry e of a. The result's length is any C the join's side condition accepts (it forces C = A + B). -/
theorem concatenate_vec_apply_left {A B C : Nat}
    (a : (⟨1, ![A]⟩ : Shape).Idx → α) (b : (⟨1, ![B]⟩ : Shape).Idx → α)
    (h : Shape.Concatenates [(⟨1, ![A]⟩ : Shape), ⟨1, ![B]⟩] ⟨1, ![C]⟩ 0) (e : Fin C) (he : e.val < A) :
    concatenate ⟨1, ![C]⟩ 0 [⟨⟨1, ![A]⟩, a⟩, ⟨⟨1, ![B]⟩, b⟩] h (ix1 e) = a (ix1 ⟨e.val, he⟩) := by
  refine concatenate_pair_apply_left (0 : Fin 1) a b h (ix1 e) rfl (ix1 ⟨e.val, he⟩) ?_
  intro d
  match d with
  | ⟨0, _⟩ => rfl

/-- TWO VECTORS JOINED, READ IN THE SECOND: entry e of the join of a (length A) and b (length B), for A ≤ e, is
    entry e − A of b. -/
theorem concatenate_vec_apply_right {A B C : Nat}
    (a : (⟨1, ![A]⟩ : Shape).Idx → α) (b : (⟨1, ![B]⟩ : Shape).Idx → α)
    (h : Shape.Concatenates [(⟨1, ![A]⟩ : Shape), ⟨1, ![B]⟩] ⟨1, ![C]⟩ 0) (e : Fin C) (he : A ≤ e.val)
    (hB : e.val - A < B) :
    concatenate ⟨1, ![C]⟩ 0 [⟨⟨1, ![A]⟩, a⟩, ⟨⟨1, ![B]⟩, b⟩] h (ix1 e) = b (ix1 ⟨e.val - A, hB⟩) := by
  refine concatenate_pair_apply_right (0 : Fin 1) a b h (ix1 e) rfl rfl (ix1 ⟨e.val - A, hB⟩) ?_ ?_
  · intro d hd
    match d with
    | ⟨0, _⟩ => exact absurd rfl hd
  · show e.val - A + A = e.val
    omega

/-- The join's side condition gives the lengths' equation C = A + B. -/
theorem concatenates_vec_length {A B C : Nat}
    (h : Shape.Concatenates [(⟨1, ![A]⟩ : Shape), ⟨1, ![B]⟩] ⟨1, ![C]⟩ 0) : C = A + B := by
  have e := h.2.2
  simp only [List.map, List.sum_cons, List.sum_nil] at e
  have e' : A + (B + 0) = C := e
  omega

/-! ## The vector of positions -/

/-- THE POSITIONS READ AT i: entry i of the w-bit vector 0, 1, …, N − 1 is the word of i. -/
theorem iota_vec_apply {N w : Nat} (i : Fin N) :
    iotaInDim ⟨1, ![N]⟩ w 0 (ix1 i) = BitVec.ofNat w i.val := rfl

/-- … and, at 32 bits and N ≤ 2³¹, read signed it is the number i. -/
theorem iota_vec_toInt {N : Nat} (hN : N ≤ 2 ^ 31) (i : Fin N) :
    (iotaInDim ⟨1, ![N]⟩ 32 0 (ix1 i)).toInt = (i.val : Int) := by
  rw [iota_vec_apply, BitVec.toInt_ofNat']
  have hi := i.isLt
  apply Int.bmod_eq_of_le_mul_two <;> omega

/-! ## An index wrapped into range -/

/-- THE WRAP READ AT j: where lane j of v is negative (signed) it becomes v j + n, elsewhere it stays; 0 and n are
    scalars spread over the shape. -/
theorem wrap_index_apply {S : Shape} {w : Nat} (n : BitVec w)
    (h0 : (⟨0, ![]⟩ : Shape).BroadcastsInDim S ![]) (v : IVec S w) (j : S.Idx) :
    select (cmpi .slt v (broadcastInDim S ![] h0 (constantI ⟨0, ![]⟩ w 0#w)))
        (addi v (broadcastInDim S ![] h0 (constantI ⟨0, ![]⟩ w n))) v j
      = if (v j).slt 0#w then v j + n else v j := by
  show Scalar.select (IntOp.cmpi .slt (v j) (broadcastInDim S ![] h0 (constantI ⟨0, ![]⟩ w 0#w) j))
      (IntOp.addi (v j) (broadcastInDim S ![] h0 (constantI ⟨0, ![]⟩ w n) j)) (v j) = _
  rw [broadcastInDim_scalar_apply, broadcastInDim_scalar_apply]
  show Scalar.select (BitVec.ofBool ((v j).slt 0#w)) (v j + n) (v j) = _
  unfold Scalar.select
  cases hs : (v j).slt 0#w
  · simp
  · simp

/-- A NON-NEGATIVE LANE IS KEPT: where lane j of v is at least 0 read signed, the wrap leaves it. -/
theorem wrap_index_of_nonneg {S : Shape} {w : Nat} (n : BitVec w)
    (h0 : (⟨0, ![]⟩ : Shape).BroadcastsInDim S ![]) (v : IVec S w) (j : S.Idx) (hj : 0 ≤ (v j).toInt) :
    select (cmpi .slt v (broadcastInDim S ![] h0 (constantI ⟨0, ![]⟩ w 0#w)))
        (addi v (broadcastInDim S ![] h0 (constantI ⟨0, ![]⟩ w n))) v j = v j := by
  rw [wrap_index_apply]
  have hs : (v j).slt 0#w = false := by
    rw [BitVec.slt_eq_decide, BitVec.toInt_zero]
    exact decide_eq_false (by omega)
  rw [hs]
  rfl

/-! ## A vector as a column, a column over the columns -/

/-- A VECTOR SPREAD AS A COLUMN, READ AT (e, 0): entry e of the vector. -/
theorem broadcast_vec_column_apply {R : Nat} (h : (⟨1, ![R]⟩ : Shape).BroadcastsInDim ⟨2, ![R, 1]⟩ ![0])
    (v : (⟨1, ![R]⟩ : Shape).Idx → α) (e : Fin R) :
    broadcastInDim ⟨2, ![R, 1]⟩ ![0] h v (ix2 e (0 : Fin 1)) = v (ix1 e) := by
  refine broadcastInDim_apply _ h v _ (ix1 e) ?_
  intro d
  match d with
  | ⟨0, _⟩ =>
    show e.val = if R = 1 then 0 else e.val
    split
    · next h1 => have := e.isLt; omega
    · rfl

/-- A COLUMN SPREAD OVER C COLUMNS, READ AT (e, c): the column's entry e. -/
theorem broadcast_column_apply {R C : Nat} (h : (⟨2, ![R, 1]⟩ : Shape).BroadcastsInDim ⟨2, ![R, C]⟩ ![0, 1])
    (v : (⟨2, ![R, 1]⟩ : Shape).Idx → α) (e : Fin R) (c : Fin C) :
    broadcastInDim ⟨2, ![R, C]⟩ ![0, 1] h v (ix2 e c) = v (ix2 e (0 : Fin 1)) := by
  refine broadcastInDim_apply _ h v _ (ix2 e (0 : Fin 1)) ?_
  intro d
  match d with
  | ⟨0, _⟩ =>
    show e.val = if R = 1 then 0 else e.val
    split
    · next h1 => have := e.isLt; omega
    · rfl
  | ⟨1, _⟩ => rfl

end Idealize.ShloMosaic.JoinIota

end
-- ==== Proof.Aggregate.lean ====
/-
  One pass over the edges with a double-width table equals two passes with the two halves.

  A table `P` of 50000 rows and 128 columns holds two 64-column tables side by side: `A` in columns 0 … 63 and
  `B` in columns 64 … 127. For every edge `e` a row of the table is fetched (row `src e`, clamped into range),
  scaled column by column — by `n1 e` in the first 64 columns and by `n2 e` in the last 64, a choice made by a
  one-bit column mask — and added into row `dst e` of a zero matrix (an edge whose `dst` is out of range is
  dropped). Entry (n, c) of the result is the sum over the edges with `dst e = n` of `P (src e, c) · scale e c`.
  Hence its first 64 columns are the same edge sum taken with `A` and `n1`, and its last 64 columns the one
  taken with `B` and `n2`: every term of the two sums is the same product. No property of the numbers is used
  beyond that; the entries may be any extended reals.
-/
import proofs.«112042_j56719338111765_2_alg».proof.Proof.LibScatterRows
import proofs.«112042_j56719338111765_2_alg».proof.Proof.LibGatherRows
import proofs.«112042_j56719338111765_2_alg».proof.Proof.LibJoinIota
import Idealize.ShloMosaic.Lib.Pipeline.Value
import Idealize.ShloMosaic.Lib.IdealHost

noncomputable section

open scoped BigOperators

namespace Cert.Aggregate

open Idealize.ShloMosaic Idealize.ShloMosaic.ValueIdx

abbrev SN128 : Shape := ⟨2, ![50000, 128]⟩
abbrev SN64 : Shape := ⟨2, ![50000, 64]⟩
abbrev SE : Shape := ⟨1, ![850000]⟩
abbrev SE1 : Shape := ⟨2, ![850000, 1]⟩
abbrev SE128 : Shape := ⟨2, ![850000, 128]⟩
abbrev SE64 : Shape := ⟨2, ![850000, 64]⟩
abbrev S0 : Shape := ⟨0, ![]⟩
abbrev SM : Shape := ⟨2, ![1, 128]⟩

/-- A one-row mask spread over all edge rows, read at (e, c): the mask's entry in column c. -/
theorem mask_rows_apply {α : Type} (h : SM.BroadcastsInDim SE128 ![0, 1]) (v : SM.Idx → α) (e : Fin 850000) (c : Fin 128) :
    broadcastInDim SE128 ![0, 1] h v (ix2 e c) = v (ix2 (0 : Fin 1) c) := by
  refine broadcastInDim_apply _ h v _ (ix2 (0 : Fin 1) c) ?_
  intro d
  match d with
  | ⟨0, _⟩ => rfl
  | ⟨1, _⟩ => rfl

/-- The row a start index selects in a table of 50000 rows: the index read signed, clamped into range. -/
def rowOf (src : IVec SE1 32) (e : Fin 850000) : Fin 50000 :=
  ⟨min (src (ix2 e (0 : Fin 1))).toInt.toNat (50000 - 1), by omega⟩

variable (wgP : GatherDims.WF SN128 SE1 SE128 [1] [0] [] [0] [] 1 ![1, 128])
  (wgA : GatherDims.WF SN64 SE1 SE64 [1] [0] [] [0] [] 1 ![1, 64])
  (wsP : ScatterDims.WF SN128 SE1 SE128 [1] [0] [0] 1)
  (wsA : ScatterDims.WF SN64 SE1 SE64 [1] [0] [0] 1)

/-- The double-width pass's update at edge e and column c: the table's entry in the fetched row times the scale
    the mask picks for that column. -/
theorem wide_update_apply (gdP : GatherDims SN128 SE1 SE128) (hgP : gdP = GatherRows.rowDims 50000 850000 128 wgP)
    (hcol : SE.BroadcastsInDim SE1 ![0]) (hP : SE1.BroadcastsInDim SE128 ![0, 1]) (hm : SM.BroadcastsInDim SE128 ![0, 1])
    (hlt : FTy.bits .bf16 < FTy.bits .f32)
    (P : FVec Ideal SN128 .bf16) (src : IVec SE1 32) (n1 n2 : FVec Ideal SE .f32) (mask : IVec SM 1)
    (e : Fin 850000) (c : Fin 128) :
    mulf (extf .f32 (Host.gather gdP P src) hlt)
        (select (broadcastInDim SE128 ![0, 1] hm mask) (broadcastInDim SE128 ![0, 1] hP (broadcastInDim SE1 ![0] hcol n1))
          (broadcastInDim SE128 ![0, 1] hP (broadcastInDim SE1 ![0] hcol n2))) (ix2 e c)
      = (P (ix2 (rowOf src e) c) : EReal) * Scalar.select (mask (ix2 (0 : Fin 1) c)) (n1 (ix1 e)) (n2 (ix1 e)) := by
  subst hgP
  rw [mulf_apply, extf_apply, select_apply, GatherRows.gather_rows_apply (by decide : 0 < 50000) wgP P src e c,
    mask_rows_apply hm mask e c,
    JoinIota.broadcast_column_apply hP _ e c, JoinIota.broadcast_column_apply hP _ e c,
    JoinIota.broadcast_vec_column_apply hcol n1 e, JoinIota.broadcast_vec_column_apply hcol n2 e]
  rfl

/-- A single-width pass's update at edge e and column c: the table's entry in the fetched row times the edge's scale. -/
theorem narrow_update_apply (gdA : GatherDims SN64 SE1 SE64) (hgA : gdA = GatherRows.rowDims 50000 850000 64 wgA)
    (hcol : SE.BroadcastsInDim SE1 ![0]) (hA : SE1.BroadcastsInDim SE64 ![0, 1])
    (A : FVec Ideal SN64 .f32) (src : IVec SE1 32) (n : FVec Ideal SE .f32) (e : Fin 850000) (c : Fin 64) :
    mulf (Host.gather gdA A src) (broadcastInDim SE64 ![0, 1] hA (broadcastInDim SE1 ![0] hcol n)) (ix2 e c)
      = (A (ix2 (rowOf src e) c) : EReal) * n (ix1 e) := by
  subst hgA
  rw [mulf_apply, GatherRows.gather_rows_apply (by decide : 0 < 50000) wgA A src e c,
    JoinIota.broadcast_column_apply hA _ e c, JoinIota.broadcast_vec_column_apply hcol n e]
  rfl

/-- THE FIRST HALF: columns 0 … 63 of the double-width edge sum are the edge sum of the first table scaled by `n1`. -/
theorem wide_low_eq (gdP : GatherDims SN128 SE1 SE128) (hgP : gdP = GatherRows.rowDims 50000 850000 128 wgP)
    (gdA : GatherDims SN64 SE1 SE64) (hgA : gdA = GatherRows.rowDims 50000 850000 64 wgA)
    (sdP : ScatterDims SN128 SE1 SE128) (hsP : sdP = ScatterRows.rowDims 50000 850000 128 wsP)
    (sdA : ScatterDims SN64 SE1 SE64) (hsA : sdA = ScatterRows.rowDims 50000 850000 64 wsA)
    (h0P : S0.BroadcastsInDim SN128 ![]) (h0A : S0.BroadcastsInDim SN64 ![])
    (hcol : SE.BroadcastsInDim SE1 ![0]) (hP : SE1.BroadcastsInDim SE128 ![0, 1]) (hA : SE1.BroadcastsInDim SE64 ![0, 1])
    (hm : SM.BroadcastsInDim SE128 ![0, 1]) (hlt : FTy.bits .bf16 < FTy.bits .f32)
    (hsl : SN128.Slices ![0, 0] SN64)
    (P : FVec Ideal SN128 .bf16) (A : FVec Ideal SN64 .f32)
    (hPA : ∀ (r : Fin 50000) (c : Fin 64), (P (ix2 r ⟨c.val, by omega⟩) : EReal) = A (ix2 r c))
    (src dst : IVec SE1 32) (n1 n2 : FVec Ideal SE .f32) (mask : IVec SM 1)
    (hmask : ∀ c : Fin 64, mask (ix2 (0 : Fin 1) (⟨c.val, by omega⟩ : Fin 128)) = 1#1) :
    extractStridedSlice SN64 ![0, 0]
        (Host.scatterAdd sdP (broadcastInDim SN128 ![] h0P (constant (F := Ideal) S0 .f32 0x00000000#32)) dst
          (mulf (extf .f32 (Host.gather gdP P src) hlt)
            (select (broadcastInDim SE128 ![0, 1] hm mask) (broadcastInDim SE128 ![0, 1] hP (broadcastInDim SE1 ![0] hcol n1))
              (broadcastInDim SE128 ![0, 1] hP (broadcastInDim SE1 ![0] hcol n2))))) hsl
      = Host.scatterAdd sdA (broadcastInDim SN64 ![] h0A (constant (F := Ideal) S0 .f32 0x00000000#32)) dst
          (mulf (Host.gather gdA A src) (broadcastInDim SE64 ![0, 1] hA (broadcastInDim SE1 ![0] hcol n1))) := by
  funext i
  obtain ⟨n, c, rfl⟩ : ∃ (n : Fin 50000) (c : Fin 64), i = ix2 n c := ⟨i 0, i 1, eq_ix2 i⟩
  rw [extractStridedSlice_apply ![0, 0] _ hsl (ix2 n c) (ix2 n (⟨c.val, by omega⟩ : Fin 128)) (fun a => by
      match a with
      | ⟨0, _⟩ => show n.val = 0 + n.val; omega
      | ⟨1, _⟩ => show c.val = 0 + c.val; omega),
    ScatterRows.host_scatterAdd_rows_apply wsP sdP hsP, ScatterRows.host_scatterAdd_rows_apply wsA sdA hsA,
    broadcastInDim_scalar_apply, broadcastInDim_scalar_apply]
  refine congrArg (_ + ·) (Finset.sum_congr rfl fun e _ => ?_)
  rw [wide_update_apply wgP gdP hgP hcol hP hm hlt, narrow_update_apply wgA gdA hgA hcol hA, hmask c, hPA]
  rfl

/-- THE SECOND HALF: columns 64 … 127 of the double-width edge sum are the edge sum of the second table scaled by `n2`. -/
theorem wide_high_eq (gdP : GatherDims SN128 SE1 SE128) (hgP : gdP = GatherRows.rowDims 50000 850000 128 wgP)
    (gdA : GatherDims SN64 SE1 SE64) (hgA : gdA = GatherRows.rowDims 50000 850000 64 wgA)
    (sdP : ScatterDims SN128 SE1 SE128) (hsP : sdP = ScatterRows.rowDims 50000 850000 128 wsP)
    (sdA : ScatterDims SN64 SE1 SE64) (hsA : sdA = ScatterRows.rowDims 50000 850000 64 wsA)
    (h0P : S0.BroadcastsInDim SN128 ![]) (h0A : S0.BroadcastsInDim SN64 ![])
    (hcol : SE.BroadcastsInDim SE1 ![0]) (hP : SE1.BroadcastsInDim SE128 ![0, 1]) (hA : SE1.BroadcastsInDim SE64 ![0, 1])
    (hm : SM.BroadcastsInDim SE128 ![0, 1]) (hlt : FTy.bits .bf16 < FTy.bits .f32)
    (hsl : SN128.Slices ![0, 64] SN64)
    (P : FVec Ideal SN128 .bf16) (B : FVec Ideal SN64 .f32)
    (hPB : ∀ (r : Fin 50000) (c : Fin 64), (P (ix2 r ⟨64 + c.val, by omega⟩) : EReal) = B (ix2 r c))
    (src dst : IVec SE1 32) (n1 n2 : FVec Ideal SE .f32) (mask : IVec SM 1)
    (hmask : ∀ c : Fin 64, mask (ix2 (0 : Fin 1) (⟨64 + c.val, by omega⟩ : Fin 128)) = 0#1) :
    extractStridedSlice SN64 ![0, 64]
        (Host.scatterAdd sdP (broadcastInDim SN128 ![] h0P (constant (F := Ideal) S0 .f32 0x00000000#32)) dst
          (mulf (extf .f32 (Host.gather gdP P src) hlt)
            (select (broadcastInDim SE128 ![0, 1] hm mask) (broadcastInDim SE128 ![0, 1] hP (broadcastInDim SE1 ![0] hcol n1))
              (broadcastInDim SE128 ![0, 1] hP (broadcastInDim SE1 ![0] hcol n2))))) hsl
      = Host.scatterAdd sdA (broadcastInDim SN64 ![] h0A (constant (F := Ideal) S0 .f32 0x00000000#32)) dst
          (mulf (Host.gather gdA B src) (broadcastInDim SE64 ![0, 1] hA (broadcastInDim SE1 ![0] hcol n2))) := by
  funext i
  obtain ⟨n, c, rfl⟩ : ∃ (n : Fin 50000) (c : Fin 64), i = ix2 n c := ⟨i 0, i 1, eq_ix2 i⟩
  rw [extractStridedSlice_apply ![0, 64] _ hsl (ix2 n c) (ix2 n (⟨64 + c.val, by omega⟩ : Fin 128)) (fun a => by
      match a with
      | ⟨0, _⟩ => show n.val = 0 + n.val; omega
      | ⟨1, _⟩ => show 64 + c.val = 64 + c.val; rfl),
    ScatterRows.host_scatterAdd_rows_apply wsP sdP hsP, ScatterRows.host_scatterAdd_rows_apply wsA sdA hsA,
    broadcastInDim_scalar_apply, broadcastInDim_scalar_apply]
  refine congrArg (_ + ·) (Finset.sum_congr rfl fun e _ => ?_)
  rw [wide_update_apply wgP gdP hgP hcol hP hm hlt, narrow_update_apply wgA gdA hgA hcol hA, hmask c, hPB]
  rfl

end Cert.Aggregate

end
-- ==== Proof.LibHostLine.lean ====
/-
  Two facts about a line of host operations, general in the program.

  Running two lines in a row is running the second from the buffer contents the first leaves.  And a value written
  through a typed reference and read back through the same reference is the value: the two transports along the
  reference's type equation cancel, whatever the buffer — so the transports inside a called function's operations
  (each result written through its typed reference, each operand read through its own) collapse pairwise without the
  buffers' types ever being computed.  After the results of such a line are rewritten, `simp only [ofBuf_toBuf]` leaves
  only the transports at the line's own inputs and at its result.
-/
import Idealize.ShloMosaic.Lib.StableHlo.Run

noncomputable section

namespace Cert.LibHostLine

open Idealize.ShloMosaic Idealize.ShloMosaic.StableHlo

variable {τ : Topo} {sig : RefSig} {Val : EltTy → Type}

/-- Running two lines in a row is running the second from where the first ends. -/
theorem after_append (l1 l2 : List (HloOp τ sig Val)) (V : Valuation τ sig Val) :
    StableHlo.after (l1 ++ l2) V = StableHlo.after l2 (StableHlo.after l1 V) := by
  induction l1 generalizing V with
  | nil => rfl
  | cons op l ih => exact ih _

/-- Reading back through a typed reference what was written through it gives the value back. -/
theorem ofBuf_toBuf {T : BufTy} (x : TRef sig T) (v : T.Contents Val) : x.ofBuf (x.toBuf v) = v := by
  obtain ⟨r, h, h2, h3⟩ := x
  subst h
  rfl

end Cert.LibHostLine

end
-- ==== Proof.EdgePass.lean ====
/-
  The edge pass of the two programs, compared.

  After the projection both programs do the same graph aggregation: the edge lists are extended by one self-loop per
  node, the degrees are counted, every edge gets the factor n1 = rsqrt (deg_out (src) · deg_in (dst)) and n2 = n1 · n1,
  a table row is fetched for every edge (row src, with a negative index wrapped once and the result clamped), scaled,
  and added into row dst. The reference makes one pass per table — the gated mean scaled by n1, the gated variance
  scaled by n2 — over 64 columns each. The kernel's host code makes ONE pass over the 128-column table that holds the
  two side by side, choosing n1 or n2 per column by the mask "column < 64", and cuts the result into its two halves.
  The index arrays, the degree counts and the factors are the same operations of the same edge lists in both
  programs, so only the fetched table and the width differ: the kernel's halves are the reference's two edge sums as
  soon as the wide table's halves are the reference's two tables (module Aggregate).
-/
import proofs.«112042_j56719338111765_2_alg».proof.Proof.Gen.KernelIdeal.Launch
import proofs.«112042_j56719338111765_2_alg».proof.Proof.Gen.ReferenceIdeal.Read
import proofs.«112042_j56719338111765_2_alg».proof.Proof.Aggregate
import proofs.«112042_j56719338111765_2_alg».proof.Proof.LibHostLine
import Idealize.ShloMosaic.Lib.StableHlo.Run
import Idealize.ShloMosaic.PureOps.Ideal

set_option maxRecDepth 16384

noncomputable section

namespace Cert.EdgePass

open Idealize.ShloMosaic Idealize.ShloMosaic.TcCoe Idealize.SL.Sem Idealize.ShloMosaic.StableHlo Idealize.ShloMosaic.ValueIdx

/-! ## The column mask -/

/-- Read signed at 32 bits, a column number below 128 is below 64 exactly when it is. -/
theorem column_slt : ∀ k : Fin 128, (BitVec.ofNat 32 k.val).slt 64#32 = decide (k.val < 64) := by decide

/-- The kernel's column mask: "the column's number is below 64", as a one-row matrix. -/
def columnMask : IVec Cert.KernelIdeal.S1x128 1 :=
  broadcastInDim Cert.KernelIdeal.S1x128 ![1] Cert.KernelIdeal.Facts₀.bcast_S128_S1x128_1
    (cmpi .slt (iotaInDim Cert.KernelIdeal.S128 32 0)
      (broadcastInDim Cert.KernelIdeal.S128 ![] Cert.KernelIdeal.Facts₀.bcast_S_S128 (constantI Cert.KernelIdeal.S_ 32 64#32)))

theorem columnMask_apply (k : Fin 128) : columnMask (ix2 (0 : Fin 1) k) = BitVec.ofBool (decide (k.val < 64)) := by
  unfold columnMask
  rw [broadcastInDim_apply ![1] Cert.KernelIdeal.Facts₀.bcast_S128_S1x128_1 _ (ix2 (0 : Fin 1) k) (ix1 k) (fun a => by
    match a with
    | ⟨0, _⟩ => show k.val = if (128 : Nat) = 1 then 0 else k.val; rw [if_neg (by decide)])]
  show IntOp.cmpi .slt (BitVec.ofNat 32 k.val)
      (broadcastInDim Cert.KernelIdeal.S128 ![] Cert.KernelIdeal.Facts₀.bcast_S_S128 (constantI Cert.KernelIdeal.S_ 32 64#32) (ix1 k)) = _
  rw [broadcastInDim_scalar_apply]
  show BitVec.ofBool ((BitVec.ofNat 32 k.val).slt 64#32) = _
  rw [column_slt k]

theorem columnMask_low (c : Fin 64) : columnMask (ix2 (0 : Fin 1) (⟨c.val, by omega⟩ : Fin 128)) = 1#1 := by
  rw [columnMask_apply, decide_eq_true (show c.val < 64 from c.isLt)]; rfl

theorem columnMask_high (c : Fin 64) : columnMask (ix2 (0 : Fin 1) (⟨64 + c.val, by omega⟩ : Fin 128)) = 0#1 := by
  rw [columnMask_apply, decide_eq_false (show ¬(64 + c.val < 64) by omega)]; rfl

/-! ## One pass of the reference -/

/-- The reference's pass over one 64-column table `A`: row src of `A` times the edge's factor, added into row dst. -/
def edgeSum (A : FVec Ideal Cert.ReferenceIdeal.S50000x64 .f32) (nrm : FVec Ideal Cert.ReferenceIdeal.S850000 .f32)
    (src dst : IVec Cert.ReferenceIdeal.S850000x1 32) : FVec Ideal Cert.ReferenceIdeal.S50000x64 .f32 :=
  Host.scatterAdd Cert.ReferenceIdeal.scatter_S50000x64_S850000x1_S850000x64_1_0_0_1
    (broadcastInDim Cert.ReferenceIdeal.S50000x64 ![] Cert.ReferenceIdeal.Facts₀.bcast_S_S50000x64
      (constant (F := Ideal) Cert.ReferenceIdeal.S_ .f32 0x00000000#32)) dst
    (mulf (Host.gather Cert.ReferenceIdeal.gather_S50000x64_S850000x1_S850000x64_1_0_n_n_0_1_164 A src)
      (broadcastInDim Cert.ReferenceIdeal.S850000x64 ![0, 1] Cert.ReferenceIdeal.Facts₀.bcast_S850000x1_S850000x64_0_1
        (broadcastInDim Cert.ReferenceIdeal.S850000x1 ![0] Cert.ReferenceIdeal.Facts₀.bcast_S850000_S850000x1_0 nrm)))

open Cert.ReferenceIdeal.Read in
/-- The reference's first result is the pass over the gated mean with the factor n1. -/
theorem ref_out0 (x0 : FVec Ideal Cert.ReferenceIdeal.S50000x256 .f32) (x1 x2 : FVec Ideal Cert.ReferenceIdeal.S256x64 .f32)
    (x3 x4 : IVec Cert.ReferenceIdeal.S800000 32) :
    val_main_v49 (F := Ideal) x0 x1 x2 x3 x4
      = edgeSum (val_main_v34 (F := Ideal) x0 x1 x2) (val_main_v32 (F := Ideal) x3 x4) (val_main_v42 (F := Ideal) x3)
          (val_main_v48 (F := Ideal) x4) := rfl

open Cert.ReferenceIdeal.Read in
/-- The reference's second result is the pass over the gated variance with the factor n2 = n1 · n1. -/
theorem ref_out1 (x0 : FVec Ideal Cert.ReferenceIdeal.S50000x256 .f32) (x2 : FVec Ideal Cert.ReferenceIdeal.S256x64 .f32)
    (x3 x4 : IVec Cert.ReferenceIdeal.S800000 32) :
    val_main_v62 (F := Ideal) x0 x2 x3 x4
      = edgeSum (val_main_v36 (F := Ideal) x0 x2) (val_main_v33 (F := Ideal) x3 x4) (val_main_v55 (F := Ideal) x3)
          (val_main_v61 (F := Ideal) x4) := rfl

/-! ## The kernel's index arrays and factors, and that they are the reference's -/

section KernelTerms
open Cert.KernelIdeal Cert.KernelIdeal.Facts₀

/-- An edge list extended by the self-loops 0, 1, …, 49999. -/
def joined (x : IVec S800000 32) : IVec S850000 32 :=
  concatenate S850000 0 [⟨S800000, x⟩, ⟨S50000, iotaInDim S50000 32 0⟩] concatenates_S800000_S50000_S850000_d0

/-- A negative index wrapped once: v + 50000 where v < 0. -/
def wrapped (v : IVec S850000 32) : IVec S850000 32 :=
  select (cmpi .slt v (broadcastInDim S850000 ![] bcast_S_S850000 (constantI S_ 32 0#32)))
    (addi v (broadcastInDim S850000 ![] bcast_S_S850000 (constantI S_ 32 50000#32))) v

/-- A vector as a one-column matrix. -/
def column {α : Type} (v : S850000.Idx → α) : S850000x1.Idx → α :=
  broadcastInDim S850000x1 ![0] bcast_S850000_S850000x1_0 v

/-- The degree count of an extended edge list: 1.0 added at every entry's node. -/
def degree (x : IVec S800000 32) : FVec Ideal S50000 .f32 :=
  Host.scatterAdd scatter_S50000_S850000x1_S850000_n_0_0_1
    (broadcastInDim S50000 ![] bcast_S_S50000 (constant (F := Ideal) S_ .f32 0x00000000#32)) (column (joined x))
    (broadcastInDim S850000 ![] bcast_S_S850000 (constant (F := Ideal) S_ .f32 0x3F800000#32))

/-- The edge factor n1 = rsqrt (deg_out (src) · deg_in (dst)). -/
def factor (x3 x4 : IVec S800000 32) : FVec Ideal S850000 .f32 :=
  Host.rsqrt (mulf (Host.gather gather_S50000_S850000x1_S850000_n_0_n_n_0_1_1 (degree x3) (column (wrapped (joined x3))))
    (Host.gather gather_S50000_S850000x1_S850000_n_0_n_n_0_1_1 (degree x4) (column (wrapped (joined x4)))))

end KernelTerms

section SameTerms
open Cert.ReferenceIdeal.Read

theorem dst_eq0 (x4 : IVec Cert.KernelIdeal.S800000 32) : column (joined x4) = val_main_v48 (F := Ideal) x4 := rfl
theorem dst_eq1 (x4 : IVec Cert.KernelIdeal.S800000 32) : column (joined x4) = val_main_v61 (F := Ideal) x4 := rfl
theorem src_eq0 (x3 : IVec Cert.KernelIdeal.S800000 32) : column (wrapped (joined x3)) = val_main_v42 (F := Ideal) x3 := rfl
theorem src_eq1 (x3 : IVec Cert.KernelIdeal.S800000 32) : column (wrapped (joined x3)) = val_main_v55 (F := Ideal) x3 := rfl
theorem factor_eq (x3 x4 : IVec Cert.KernelIdeal.S800000 32) : factor x3 x4 = val_main_v32 (F := Ideal) x3 x4 := rfl
theorem factor_sq_eq (x3 x4 : IVec Cert.KernelIdeal.S800000 32) :
    mulf (factor x3 x4) (factor x3 x4) = val_main_v33 (F := Ideal) x3 x4 := rfl

end SameTerms

/-! ## The kernel's one pass, after its region -/

section Tail
open Cert.KernelIdeal Cert.KernelIdeal.Gen Cert.ReferenceIdeal.Read

/-- The kernel's host operations after the region, all 62 in order. -/
abbrev tailOps : List (HloOp τ sig (Elt Ideal)) := List.flatten [hostOps1, hostOps1_1, hostOps1_2]

/-! The called function's operands and result pass through typed references; at these four buffers the transport is
    the identity. -/
theorem read_mask (h1 h2 h3) (v : main_v31.ty.Contents (Elt Ideal)) :
    (TRef.of (T := ⟨S1x128, .i1⟩) main_v31 h1 h2 h3).ofBuf v = v := rfl
theorem read_first (h1 h2 h3) (v : main_v32.ty.Contents (Elt Ideal)) :
    (TRef.of (T := ⟨S850000x1, .f32⟩) main_v32 h1 h2 h3).ofBuf v = v := rfl
theorem read_second (h1 h2 h3) (v : main_v33.ty.Contents (Elt Ideal)) :
    (TRef.of (T := ⟨S850000x1, .f32⟩) main_v33 h1 h2 h3).ofBuf v = v := rfl
theorem write_scale (h1 h2 h3) (v : (⟨S850000x128, .f32⟩ : BufTy).Contents (Elt Ideal)) :
    (TRef.of (T := ⟨S850000x128, .f32⟩) main_v34 h1 h2 h3).toBuf v = v := rfl

set_option maxHeartbeats 64000000 in
/-- From any buffer contents `W` — the wide table in the region's result buffer, the two edge lists in their
    argument buffers —, the kernel's first result is the reference's pass over any table `A` that the wide table's
    first 64 columns hold. -/
theorem kernel_out0 (W : Valuation τ sig (Elt Ideal)) (A : FVec Ideal Cert.ReferenceIdeal.S50000x64 .f32)
    (hA : ∀ (r : Fin 50000) (c : Fin 64),
      ((W (Proc.devRef .tc main_v0) : FVec Ideal S50000x128 .bf16) (ix2 r (⟨c.val, by omega⟩ : Fin 128)) : EReal) = A (ix2 r c)) :
    after tailOps W (Proc.devRef .tc main_v47)
      = edgeSum A (val_main_v32 (F := Ideal) (W (Proc.devRef .tc main_arg3)) (W (Proc.devRef .tc main_arg4)))
          (val_main_v42 (F := Ideal) (W (Proc.devRef .tc main_arg3))) (val_main_v48 (F := Ideal) (W (Proc.devRef .tc main_arg4))) := by
  simp only [tailOps, hostOps1, hostOps1_1, hostOps1_2, List.flatten_cons, List.flatten_nil, List.append_nil, List.cons_append,
    List.nil_append]
  after_results_simp
  repeat (first
    | rw [nullary_result] | rw [binary_result]
    | (rw [nullary_result_ne]; rotate_left; decide)
    | (rw [binary_result_ne]; rotate_left; decide))
  simp only [Cert.LibHostLine.ofBuf_toBuf]
  rw [read_mask, read_first, read_second, write_scale]
  refine (Cert.Aggregate.wide_low_eq
    Cert.KernelIdeal.Facts₀.gather_S50000x128_S850000x1_S850000x128_1_0_n_n_0_1_1128_wf
    Cert.ReferenceIdeal.Facts₀.gather_S50000x64_S850000x1_S850000x64_1_0_n_n_0_1_164_wf
    Cert.KernelIdeal.Facts₀.scatter_S50000x128_S850000x1_S850000x128_1_0_0_1_wf
    Cert.ReferenceIdeal.Facts₀.scatter_S50000x64_S850000x1_S850000x64_1_0_0_1_wf
    Cert.KernelIdeal.gather_S50000x128_S850000x1_S850000x128_1_0_n_n_0_1_1128 rfl
    Cert.ReferenceIdeal.gather_S50000x64_S850000x1_S850000x64_1_0_n_n_0_1_164 rfl
    Cert.KernelIdeal.scatter_S50000x128_S850000x1_S850000x128_1_0_0_1 rfl
    Cert.ReferenceIdeal.scatter_S50000x64_S850000x1_S850000x64_1_0_0_1 rfl
    Cert.KernelIdeal.Facts₀.bcast_S_S50000x128 Cert.ReferenceIdeal.Facts₀.bcast_S_S50000x64
    Cert.KernelIdeal.Facts₀.bcast_S850000_S850000x1_0 Cert.KernelIdeal.Facts₀.bcast_S850000x1_S850000x128_0_1
    Cert.ReferenceIdeal.Facts₀.bcast_S850000x1_S850000x64_0_1 Cert.KernelIdeal.Facts₀.bcast_S1x128_S850000x128_0_1
    Cert.KernelIdeal.Facts₀.bitsLt_bf16_f32 Cert.KernelIdeal.Facts₀.slices_S50000x128_S50000x64_0_0
    (W (Proc.devRef .tc main_v0)) A hA _ _ _ _ _ columnMask_low).trans ?_
  rw [← factor_eq, ← src_eq0, ← dst_eq0]
  rfl

set_option maxHeartbeats 64000000 in
/-- … and its second result is the reference's pass, with the factor n2 = n1 · n1, over any table `B` that the wide
    table's last 64 columns hold. -/
theorem kernel_out1 (W : Valuation τ sig (Elt Ideal)) (B : FVec Ideal Cert.ReferenceIdeal.S50000x64 .f32)
    (hB : ∀ (r : Fin 50000) (c : Fin 64),
      ((W (Proc.devRef .tc main_v0) : FVec Ideal S50000x128 .bf16) (ix2 r (⟨64 + c.val, by omega⟩ : Fin 128)) : EReal) = B (ix2 r c)) :
    after tailOps W (Proc.devRef .tc main_v48)
      = edgeSum B (val_main_v33 (F := Ideal) (W (Proc.devRef .tc main_arg3)) (W (Proc.devRef .tc main_arg4)))
          (val_main_v55 (F := Ideal) (W (Proc.devRef .tc main_arg3))) (val_main_v61 (F := Ideal) (W (Proc.devRef .tc main_arg4))) := by
  simp only [tailOps, hostOps1, hostOps1_1, hostOps1_2, List.flatten_cons, List.flatten_nil, List.append_nil, List.cons_append,
    List.nil_append]
  after_results_simp
  repeat (first
    | rw [nullary_result] | rw [binary_result]
    | (rw [nullary_result_ne]; rotate_left; decide)
    | (rw [binary_result_ne]; rotate_left; decide))
  simp only [Cert.LibHostLine.ofBuf_toBuf]
  rw [read_mask, read_first, read_second, write_scale]
  refine (Cert.Aggregate.wide_high_eq
    Cert.KernelIdeal.Facts₀.gather_S50000x128_S850000x1_S850000x128_1_0_n_n_0_1_1128_wf
    Cert.ReferenceIdeal.Facts₀.gather_S50000x64_S850000x1_S850000x64_1_0_n_n_0_1_164_wf
    Cert.KernelIdeal.Facts₀.scatter_S50000x128_S850000x1_S850000x128_1_0_0_1_wf
    Cert.ReferenceIdeal.Facts₀.scatter_S50000x64_S850000x1_S850000x64_1_0_0_1_wf
    Cert.KernelIdeal.gather_S50000x128_S850000x1_S850000x128_1_0_n_n_0_1_1128 rfl
    Cert.ReferenceIdeal.gather_S50000x64_S850000x1_S850000x64_1_0_n_n_0_1_164 rfl
    Cert.KernelIdeal.scatter_S50000x128_S850000x1_S850000x128_1_0_0_1 rfl
    Cert.ReferenceIdeal.scatter_S50000x64_S850000x1_S850000x64_1_0_0_1 rfl
    Cert.KernelIdeal.Facts₀.bcast_S_S50000x128 Cert.ReferenceIdeal.Facts₀.bcast_S_S50000x64
    Cert.KernelIdeal.Facts₀.bcast_S850000_S850000x1_0 Cert.KernelIdeal.Facts₀.bcast_S850000x1_S850000x128_0_1
    Cert.ReferenceIdeal.Facts₀.bcast_S850000x1_S850000x64_0_1 Cert.KernelIdeal.Facts₀.bcast_S1x128_S850000x128_0_1
    Cert.KernelIdeal.Facts₀.bitsLt_bf16_f32 Cert.KernelIdeal.Facts₀.slices_S50000x128_S50000x64_0_64
    (W (Proc.devRef .tc main_v0)) B hB _ _ _ _ _ columnMask_high).trans ?_
  rw [← factor_sq_eq, ← src_eq1, ← dst_eq1]
  rfl

end Tail

end Cert.EdgePass

end
-- ==== Proof.Outputs.lean ====
/-
  The idealized kernel's run, read: its two results after the host's edge pass.

  The region leaves the wide table — gated mean | gated variance — in its result array and nothing else changed;
  the host operations after it read that table and the two edge lists, and their two results are the reference's
  two edge sums: the reference's tables are, entry by entry, the two halves of the wide table.
-/
import proofs.«112042_j56719338111765_2_alg».proof.Proof.Gen.KernelIdeal.Frame
import proofs.«112042_j56719338111765_2_alg».proof.Proof.Gen.ReferenceIdeal.Read
import proofs.«112042_j56719338111765_2_alg».proof.Proof.Region
import proofs.«112042_j56719338111765_2_alg».proof.Proof.RefTables
import proofs.«112042_j56719338111765_2_alg».proof.Proof.EdgePass

set_option maxRecDepth 16384

noncomputable section

namespace Cert.KernelIdeal.Outputs

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (m : (ℓ : Loc nD τ sig) → Buf (Elt Ideal) ℓ) (ρ : Dev nD → PrngReg)

/-- The first result as a function of the argument arrays: the edge sum of the gated mean. -/
def result0 (c : Dev nD) : Buf (Elt Ideal) ((c.tc : Thread nD τ).loc main_v47) :=
  Cert.ReferenceIdeal.Read.val_main_v49 (F := Ideal) (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))

/-- The second result: the edge sum of the gated variance. -/
def result1 (c : Dev nD) : Buf (Elt Ideal) ((c.tc : Thread nD τ).loc main_v48) :=
  Cert.ReferenceIdeal.Read.val_main_v62 (F := Ideal) (m ((c.tc : Thread nD τ).loc main_arg0))
    (m ((c.tc : Thread nD τ).loc main_arg2)) (m ((c.tc : Thread nD τ).loc main_arg3)) (m ((c.tc : Thread nD τ).loc main_arg4))

/-- The buffers' contents when the region is done: its arrays as the run left them, everything else as launched. -/
abbrev afterRegion (c : Dev nD) : Valuation τ sig (Elt Ideal) :=
  Pipeline.withArrays (cfgs 0).spec c (V0 m c) fun w => (dats m 0 c).arrAt w (cfgs 0).N

/-- The region's result buffer holds the wide table. -/
theorem at_table (c : Dev nD) :
    afterRegion m c (Proc.devRef .tc main_v0) = Region.wideTable (m ((c : Thread nD τ).loc main_arg0))
      (m ((c : Thread nD τ).loc main_arg1)) (m ((c : Thread nD τ).loc main_arg2)) :=
  (Pipeline.withArrays_arr spec0 launch0.win.arr_inj c _ _ 3).trans (Region.result_array m c)

/-- The edge lists are no array of the region: they hold what they were launched with. -/
theorem at_src (c : Dev nD) : afterRegion m c (Proc.devRef .tc main_arg3) = m ((c : Thread nD τ).loc main_arg3) :=
  (Pipeline.withArrays_of_ne _ c (V0 m c) _ main_arg3 (by exact (by decide : ∀ w, Pipeline.arrRef spec0 w ≠ main_arg3))).trans
    (V_main_arg3 m c)
theorem at_dst (c : Dev nD) : afterRegion m c (Proc.devRef .tc main_arg4) = m ((c : Thread nD τ).loc main_arg4) :=
  (Pipeline.withArrays_of_ne _ c (V0 m c) _ main_arg4 (by exact (by decide : ∀ w, Pipeline.arrRef spec0 w ≠ main_arg4))).trans
    (V_main_arg4 m c)

/-- The host operations after the region leave the first edge sum in the first result. -/
theorem out0 (c : Dev nD) :
    Pipeline.afterTail₀ cfgs (dats m) 0 (V0 m) [hostOps1, hostOps1_1, hostOps1_2] c main_v47 = result0 m c := by
  unfold Pipeline.afterTail₀
  refine (Cert.EdgePass.kernel_out0 (afterRegion m c)
    (Cert.ReferenceIdeal.Read.val_main_v34 (F := Ideal) (m ((c.tc : Thread nD τ).loc main_arg0))
      (m ((c.tc : Thread nD τ).loc main_arg1)) (m ((c.tc : Thread nD τ).loc main_arg2))) (fun r k => ?_)).trans ?_
  · rw [at_table, Region.wideTable_low, Cert.ReferenceIdeal.Tables.mean_apply]
  · rw [at_src, at_dst]
    exact (Cert.EdgePass.ref_out0 _ _ _ _ _).symm

/-- … and the second edge sum in the second. -/
theorem out1 (c : Dev nD) :
    Pipeline.afterTail₀ cfgs (dats m) 0 (V0 m) [hostOps1, hostOps1_1, hostOps1_2] c main_v48 = result1 m c := by
  unfold Pipeline.afterTail₀
  refine (Cert.EdgePass.kernel_out1 (afterRegion m c)
    (Cert.ReferenceIdeal.Read.val_main_v36 (F := Ideal) (m ((c.tc : Thread nD τ).loc main_arg0))
      (m ((c.tc : Thread nD τ).loc main_arg2))) (fun r k => ?_)).trans ?_
  · rw [at_table, Region.wideTable_high, Cert.ReferenceIdeal.Tables.var_apply]
  · rw [at_src, at_dst]
    exact (Cert.EdgePass.ref_out1 _ _ _ _).symm

/-- THE RUN: every weakly fair execution of the idealized kernel terminates with its two results at the two edge sums
    of the argument arrays, the arguments unchanged. -/
theorem run : θ_run defs (onTc (τ := τ) (main (F := Ideal))) ⟨m, fun _ => 0, ρ⟩ (fun r => ∀ c : Dev nD,
      r.2.mem ((c.tc : Thread nD τ).loc main_v47) = result0 m c
      ∧ r.2.mem ((c.tc : Thread nD τ).loc main_v48) = result1 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v47 (Pipeline.mem_restRefs_of main_v47 (by decide) (by decide))).trans (out0 m c),
      ((h c).2 main_v48 (Pipeline.mem_restRefs_of main_v48 (by decide) (by decide))).trans (out1 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.Outputs

end
-- ==== Proof.lean ====
/-
  A graph layer with attention-gated mean and variance: the fused kernel against the reference, on the extended reals.

  Both programs project the node features by two weight matrices, rectify, form the attention exp (−variance), gate
  the mean once and the variance twice, and aggregate over the edges (with one self-loop per node) with the factors
  n1 = rsqrt (deg_out (src) · deg_in (dst)) and n2 = n1 · n1. The kernel computes the two gated tables in one
  region, side by side in a 128-column array of narrower floats (a change of format is the identity here), and its
  host code aggregates that one wide table, choosing n1 or n2 per column, and cuts the result in two; the reference
  aggregates the two 64-column tables separately. Each entry of each result is, in both programs, the sum over the
  edges into that node of the SAME products — table entry of the fetched row times the edge's factor —, so the
  results are equal whatever the inputs hold: no property of the numbers is used, the precondition is not opened.

  The steps: what a grid point stores (Payload), what the region leaves in its result array (Region), the
  reference's two tables entry by entry (RefTables), the one wide pass against the two narrow ones (Aggregate,
  EdgePass), the kernel's run read to its results (Outputs), and the claims below.
-/
import proofs.«112042_j56719338111765_2_alg».proof.Defs
import proofs.«112042_j56719338111765_2_alg».proof.Proof.Gen.Kernel
import proofs.«112042_j56719338111765_2_alg».proof.Proof.Gen.Kernel.Frame
import proofs.«112042_j56719338111765_2_alg».proof.Proof.Gen.KernelIdeal
import proofs.«112042_j56719338111765_2_alg».proof.Proof.Gen.KernelIdeal.Frame
import proofs.«112042_j56719338111765_2_alg».proof.Proof.Gen.ReferenceIdeal
import proofs.«112042_j56719338111765_2_alg».proof.Proof.Gen.Pre_finite_inputs
import proofs.«112042_j56719338111765_2_alg».proof.Proof.Gen.ReferenceIdeal.Run
import proofs.«112042_j56719338111765_2_alg».proof.Proof.Gen.ReferenceIdeal.Read
import proofs.«112042_j56719338111765_2_alg».proof.Proof.Outputs
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is a line of host operations: its run, with the results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- Both programs end with the two edge sums of the arguments they agree on. -/
theorem algebraic : Cert.algebraic_KernelIdeal_ReferenceIdeal := by
  intro m ρ m' ρ' _ hagree
  refine ⟨Cert.KernelIdeal.Outputs.result0 m, Cert.KernelIdeal.Outputs.result1 m, Cert.KernelIdeal.Outputs.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · unfold Cert.KernelIdeal.Outputs.result0
    rw [Cert.ReferenceIdeal.Read.val_main_v49_eq, (hagree c).1, (hagree c).2.1, (hagree c).2.2.1, (hagree c).2.2.2.1,
      (hagree c).2.2.2.2]
  · unfold Cert.KernelIdeal.Outputs.result1
    rw [Cert.ReferenceIdeal.Read.val_main_v62_eq, (hagree c).1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
